-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  main_v3
-- ==== Kernel.lean ====
abbrev S32x1024x1024 : Shape := ⟨3, ![32, 1024, 1024]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩

abbrev nBuf : Space → Nat
  | .hbm => 2
  | .vmem => 7
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v0 : BitVec 32 := Scalar.muli c0_i32 c256_i32
  v0
def k0_off1 (c0_i32 : BitVec 32) : Fin 3 → Nat :=
  let c0 : Index := 0#32
  let c256_i32 : BitVec 32 := 256#32
  let v0 : BitVec 32 := Scalar.muli c0_i32 c256_i32
  let v1 : BitVec 32 := v0
  let v2 : Index := Scalar.indexCast v1
  let c0_0 : Index := 0#32
  ![0, v2.toNat, 0]
def k0_off2 (c0_i32 : BitVec 32) : Fin 2 → Nat :=
  let c256_i32 : BitVec 32 := 256#32
  let v0 : BitVec 32 := Scalar.muli c0_i32 c256_i32
  let v1 : BitVec 32 := v0
  let v20 : Index := Scalar.indexCast v1
  let c0_3 : Index := 0#32
  ![v20.toNat, 0]
def k0_mult2 : BitVec 32 :=
  let c1_i32 : BitVec 32 := 1#32
  let c256_i32_6 : BitVec 32 := 256#32
  let v34 : BitVec 32 := Scalar.muli c1_i32 c256_i32_6
  v34
def k0_mult3 : BitVec 32 :=
  let c2_i32 : BitVec 32 := 2#32
  let c256_i32_15 : BitVec 32 := 256#32
  let v68 : BitVec 32 := Scalar.muli c2_i32 c256_i32_15
  v68
def k0_mult4 : BitVec 32 :=
  let c3_i32 : BitVec 32 := 3#32
  let c256_i32_24 : BitVec 32 := 256#32
  let v102 : BitVec 32 := Scalar.muli c3_i32 c256_i32_24
  v102
def k0_mult5 : BitVec 32 :=
  let c0_i32_33 : BitVec 32 := 0#32
  let c256_i32_34 : BitVec 32 := 256#32
  let v136 : BitVec 32 := Scalar.muli c0_i32_33 c256_i32_34
  v136
def k0_mult6 : BitVec 32 :=
  let c1_i32_46 : BitVec 32 := 1#32
  let c256_i32_47 : BitVec 32 := 256#32
  let v156 : BitVec 32 := Scalar.muli c1_i32_46 c256_i32_47
  v156
def k0_mult7 : BitVec 32 :=
  let c2_i32_59 : BitVec 32 := 2#32
  let c256_i32_60 : BitVec 32 := 256#32
  let v176 : BitVec 32 := Scalar.muli c2_i32_59 c256_i32_60
  v176
def k0_mult8 : BitVec 32 :=
  let c3_i32_72 : BitVec 32 := 3#32
  let c256_i32_73 : BitVec 32 := 256#32
  let v196 : BitVec 32 := Scalar.muli c3_i32_72 c256_i32_73
  v196
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S1x256x1024 : 0 < S1x256x1024.numel
  shapeCasts_S1x256x1024_S256x1024 : S1x256x1024.ShapeCasts S256x1024
  reduces_S256x1024_S256 : S256x1024.Reduces [1] S256
  shapeCasts_S256_S256x1 : S256.ShapeCasts S256x1
  broadcasts_S256x1_S256x1024 : S256x1.Broadcasts S256x1024
  bitsLt_bf16_f32 : FTy.bits .bf16 < FTy.bits .f32
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S256x1024_S1x256x1024 : S256x1024.ShapeCasts S1x256x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  k0_mult1_dvd : 256 ∣ k0_mult1.toNat
  k0_off1_inb : ∀ (r : Fin 4), ∀ a, (k0_off1 (BitVec.ofNat 32 r.val)) a + S1x256x1024.size a ≤ S1x1024x1024.size a
  k0_off2_inb : ∀ (r : Fin 4), ∀ a, (k0_off2 (BitVec.ofNat 32 r.val)) a + S256x1024.size a ≤ S1024x1024.size a
  k0_off2_packedbf16 : ∀ (r : Fin 4), (Rect.unit (s := S1024x1024) (k0_off2 (BitVec.ofNat 32 r.val)) S256x1024.size (k0_off2_inb r)).PackedRows (EltTy.packing .bf16)
  k0_mult2_dvd : 256 ∣ k0_mult2.toNat
  k0_mult3_dvd : 256 ∣ k0_mult3.toNat
  k0_mult4_dvd : 256 ∣ k0_mult4.toNat
  k0_mult5_dvd : 256 ∣ k0_mult5.toNat
  k0_mult6_dvd : 256 ∣ k0_mult6.toNat
  k0_mult7_dvd : 256 ∣ k0_mult7.toNat
  k0_mult8_dvd : 256 ∣ k0_mult8.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S_, .f32⟩
  | .hbm, ⟨2, _⟩ => ⟨S32x1024, .f32⟩
  | .hbm, ⟨3, _⟩ => ⟨S_, .f32⟩
  | .hbm, ⟨4, _⟩ => ⟨S32x1024, .f32⟩
  | .hbm, ⟨5, _⟩ => ⟨S32x1024, .f32⟩
  | .hbm, ⟨6, _⟩ => ⟨S32x1024x1, .f32⟩
  | .hbm, ⟨7, _⟩ => ⟨S32x1024x1024, .f32⟩
  | .hbm, ⟨8, _⟩ => ⟨S32x1024x1024, .f32⟩
  | .hbm, ⟨9, _⟩ => ⟨S32x1024x1024, .f32⟩
  | .hbm, ⟨10, _⟩ => ⟨S_, .f32⟩
  | .hbm, ⟨11, _⟩ => ⟨S32x1024, .f32⟩
  | .hbm, ⟨12, _⟩ => ⟨S32x1024x1, .f32⟩
  | .hbm, ⟨13, _⟩ => ⟨S32x1024x1, .f32⟩
  | .hbm, ⟨14, _⟩ => ⟨S32x1024x1024, .f32⟩
  | .hbm, ⟨15, _⟩ => ⟨S32x1024x1024, .f32⟩
  | .hbm, ⟨16, _⟩ => ⟨S32x1024x1024, .f32⟩
  | .hbm, ⟨17, _⟩ => ⟨S32x1024x1024, .f32⟩
  | .hbm, ⟨18, _⟩ => ⟨S_, .f32⟩
  | .hbm, ⟨19, _⟩ => ⟨S32x1024, .f32⟩
  | .hbm, ⟨20, _⟩ => ⟨S32x1024x1024, .f32⟩
  | .hbm, ⟨21, _⟩ => ⟨S32x1024x1, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32x1024, .f32⟩
  | .hbm, ⟨27, _⟩ => ⟨S_, .f32⟩
  | .hbm, ⟨28, _⟩ => ⟨S32x1024, .f32⟩
  | .hbm, ⟨29, _⟩ => ⟨S32x1024, .f32⟩
  | .hbm, ⟨30, _⟩ => ⟨S32x1024x1, .f32⟩
  | .hbm, ⟨31, _⟩ => ⟨S32x1024x1024, .f32⟩
  | .hbm, ⟨32, _⟩ => ⟨S32x1024x1024, .f32⟩
  | .hbm, ⟨33, _⟩ => ⟨S32x1024x1024, .f32⟩
  | .hbm, ⟨34, _⟩ => ⟨S_, .f32⟩
  | .hbm, ⟨35, _⟩ => ⟨S32x1024, .f32⟩
  | .hbm, ⟨36, _⟩ => ⟨S32x1024x1, .f32⟩
  | .hbm, ⟨37, _⟩ => ⟨S32x1024x1024, .f32⟩
  | .hbm, ⟨38, _⟩ => ⟨S32x1024x1024, .f32⟩
  | .hbm, ⟨39, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_call0_cst_0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_1 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]

class Facts₀ : Prop where
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x1024_S32x1024x1024_S32x1024x1024_2_2_1_1_0_0_wf : DotDims.WF S32x1024x1024 S32x1024x1024 S32x1024x1024 [2] [2] [1] [1] [0] [0]
  dot_S32x1024x1024_S32x1024x1024_S32x1024x1024_2_1_1_2_0_0_wf : DotDims.WF S32x1024x1024 S32x1024x1024 S32x1024x1024 [2] [1] [1] [2] [0] [0]

variable [Facts₀]

def dot_S32x1024x1024_S32x1024x1024_S32x1024x1024_2_2_1_1_0_0 : DotDims S32x1024x1024 S32x1024x1024 S32x1024x1024 where
  lhsContracting := [2]
  rhsContracting := [2]
  lhsNonContracting := [1]
  rhsNonContracting := [1]
  lhsBatch := [0]
  rhsBatch := [0]
  wf := dot_S32x1024x1024_S32x1024x1024_S32x1024x1024_2_2_1_1_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf

class Facts : Prop extends Facts₀ where

variable [Facts]
-- ==== Proof.Spec.lean ====
/-
  The specification. For one batch slice `X` (an `N × D` matrix of extended reals) both programs compute an
  attention whose weights come from the Kullback–Leibler divergences between the rows' softmax distributions.

  Shared: the row maximum `vmax (X i)`, the shifted row `X i d - max`, its exponentials, their sum (the
  denominator) and the log-probabilities `logp i d = shifted - log denom`.

  The kernel's side takes the probabilities as `exp(shifted) · (1 / denom)`, the logits as the cross terms
  `c i j = ∑ d, p i d · logp j d` alone, and normalises `exp (c i j)` by the product with the reciprocal of the row sum.

  The reference's side takes the probabilities as `exp (logp)`, the logits as minus the divergence
  `-(∑ d, p i d · logp i d - c i j)`, subtracts their row maximum before the exponential, and normalises by a quotient.

  Both then average the rows of `X` with these weights. That the two are one function on finite inputs is
  `Cert.KlAttn.outK_eq_outR` (Proof/SpecLaw.lean).
-/
import Idealize.ShloMosaic.PureOps.Ideal

noncomputable section

namespace Cert.KlAttn

open Idealize.ShloMosaic

/-- The maximum of a finite family of extended reals, taken from `-∞`. -/
def vmax {n : ℕ} (f : Fin n → EReal) : EReal := (Finset.univ : Finset (Fin n)).fold max ⊥ f

variable {N D : ℕ} (X : Fin N → Fin D → EReal)

/-- Row `i` minus its maximum. -/
def shifted (i : Fin N) (d : Fin D) : EReal := X i d - vmax (X i)

/-- The exponentials of the shifted row. -/
def expo (i : Fin N) (d : Fin D) : EReal := Ideal.exp (shifted X i d)

/-- The softmax denominator of row `i`. -/
def denom (i : Fin N) : EReal := ∑ d : Fin D, expo X i d

/-- The log-probabilities: `log_softmax` of row `i`. -/
def logp (i : Fin N) (d : Fin D) : EReal := shifted X i d - Ideal.log (denom X i)

/-! ### The kernel's side -/

/-- The probabilities as the kernel takes them: the exponentials times the reciprocal of the denominator. -/
def probK (i : Fin N) (d : Fin D) : EReal := expo X i d * Ideal.div 1 (denom X i)

/-- The cross term `∑ d, p i d · logp j d` with the kernel's probabilities. -/
def crossK (i j : Fin N) : EReal := ∑ d : Fin D, probK X i d * logp X j d

/-- The kernel's attention weights: `exp (c i j)` times the reciprocal of its row sum. -/
def attnK (i j : Fin N) : EReal := Ideal.exp (crossK X i j) * Ideal.div 1 (∑ j' : Fin N, Ideal.exp (crossK X i j'))

/-- The kernel's result: the rows of `X` averaged with its weights. -/
def outK (i : Fin N) (d : Fin D) : EReal := ∑ j : Fin N, attnK X i j * X j d

/-! ### The reference's side -/

/-- The probabilities as the reference takes them: the exponential of the log-probabilities. -/
def probR (i : Fin N) (d : Fin D) : EReal := Ideal.exp (logp X i d)

/-- The negative entropy `∑ d, p i d · logp i d` of row `i`. -/
def negEnt (i : Fin N) : EReal := ∑ d : Fin D, probR X i d * logp X i d

/-- The cross term with the reference's probabilities. -/
def crossR (i j : Fin N) : EReal := ∑ d : Fin D, probR X i d * logp X j d

/-- Minus the divergence of row `j`'s distribution from row `i`'s. -/
def negKl (i j : Fin N) : EReal := -(negEnt X i - crossR X i j)

/-- The reference's unnormalised weights: the exponential of `negKl` minus its row maximum. -/
def unnorm (i j : Fin N) : EReal := Ideal.exp (negKl X i j - vmax (negKl X i))

/-- The reference's attention weights: the quotient by the row sum. -/
def attnR (i j : Fin N) : EReal := Ideal.div (unnorm X i j) (∑ j' : Fin N, unnorm X i j')

/-- The reference's result. -/
def outR (i : Fin N) (d : Fin D) : EReal := ∑ j : Fin N, attnR X i j * X j d

end Cert.KlAttn

end
-- ==== Proof.Whole.lean ====
/-
  The two specifications applied to a whole `[32, 1024, 1024]` array, batch slice by batch slice: entry `(b, i, d)` of the
  result is the slice-wise function of Proof/Spec.lean, of slice `b` of the argument, at `(i, d)`.
-/
import proofs.«150756_j33964601377283_2_alg».proof.Proof.Spec
import Idealize.ShloMosaic.Lib.ValueIdx

noncomputable section

namespace Cert.KlAttn

open Idealize.ShloMosaic Idealize.ShloMosaic.ValueIdx

/-- The shape of the argument and of the result. -/
abbrev SArr : Shape := ⟨3, ![32, 1024, 1024]⟩

/-- Batch slice `b` of an array, as a `1024 × 1024` matrix. -/
def slice (A : SArr.Idx → EReal) (b : Fin 32) : Fin 1024 → Fin 1024 → EReal := fun i d => A (ix3 b i d)

/-- The kernel's side on a whole array. -/
def wholeK (A : SArr.Idx → EReal) : SArr.Idx → EReal := fun j => outK (slice A (j 0)) (j 1) (j 2)

/-- The reference's side on a whole array. -/
def wholeR (A : SArr.Idx → EReal) : SArr.Idx → EReal := fun j => outR (slice A (j 0)) (j 1) (j 2)

theorem slice_apply (A : SArr.Idx → EReal) (b : Fin 32) (i d : Fin 1024) : slice A b i d = A (ix3 b i d) := rfl

theorem wholeK_ix3 (A : SArr.Idx → EReal) (b : Fin 32) (i d : Fin 1024) :
    wholeK A (ix3 b i d) = outK (slice A b) i d := rfl

theorem wholeR_ix3 (A : SArr.Idx → EReal) (b : Fin 32) (i d : Fin 1024) :
    wholeR A (ix3 b i d) = outR (slice A b) i d := rfl

end Cert.KlAttn

end
-- ==== Proof.SpecRows.lean ====
/-
  The softmax stage works row by row: the shifted row, its exponentials, the denominator, the log-probabilities and
  the kernel's probabilities of row `i` of a matrix depend on that row alone. So a row computed inside a tile of rows
  (a matrix with fewer rows) is the row of the whole matrix it was cut from.
-/
import proofs.«150756_j33964601377283_2_alg».proof.Proof.Spec

noncomputable section

namespace Cert.KlAttn

variable {N M D : ℕ} (A : Fin N → Fin D → EReal) (B : Fin M → Fin D → EReal) (i : Fin N) (j : Fin M)

/-- Equal rows have equal shifted rows. -/
theorem shifted_row (h : A i = B j) : shifted A i = shifted B j := by
  funext d; simp only [shifted, h]

/-- Equal rows have equal exponentials. -/
theorem expo_row (h : A i = B j) : expo A i = expo B j := by
  funext d; simp only [expo, shifted_row A B i j h]

/-- Equal rows have equal softmax denominators. -/
theorem denom_row (h : A i = B j) : denom A i = denom B j := by
  simp only [denom, expo_row A B i j h]

/-- Equal rows have equal log-probabilities. -/
theorem logp_row (h : A i = B j) : logp A i = logp B j := by
  funext d; simp only [logp, shifted_row A B i j h, denom_row A B i j h]

/-- Equal rows have equal probabilities (the kernel's form). -/
theorem probK_row (h : A i = B j) : probK A i = probK B j := by
  funext d; simp only [probK, expo_row A B i j h, denom_row A B i j h]

end Cert.KlAttn

end
-- ==== Proof.KTiles.lean ====
/-
  The body runs the same two computations on each of its four row tiles: the softmax stage (a tile of `x` to the
  tiles of `x`, `softmax x` and `log_softmax x` it stores) and the attention stage (a tile of `p`, the whole `logp` and
  the whole `x` to a tile of the result). The printed body is cut into parts at fixed statement counts, so the four tiles'
  stored values are spelt as different compositions of the same operations; each is, by unfolding, the first tile's.
-/
import proofs.«150756_j33964601377283_2_alg».proof.Proof.Gen.KernelIdeal.Skeleton

noncomputable section

namespace Cert.KTiles

open Cert.KernelIdeal Cert.KernelIdeal.Gen Idealize.ShloMosaic

variable {F : FTy → Type} [FloatOps F]

/-! ### The softmax stage: tiles 1, 2, 3 as tile 0's three stored values -/

theorem x_tile1 (v : Vec F S1x256x1024 .f32) : k0_pay14 (k0_pay9 v) = k0_pay6 v := rfl
theorem p_tile1 (v : Vec F S1x256x1024 .f32) : k0_pay15 (k0_pay9 v) (k0_pay10 v) = k0_pay7 v := rfl
theorem lp_tile1 (v : Vec F S1x256x1024 .f32) : k0_pay16 (k0_pay9 v) (k0_pay10 v) = k0_pay8 v := rfl

theorem x_tile2 (v : Vec F S1x256x1024 .f32) : k0_pay23 (k0_pay17 v) = k0_pay6 v := rfl
theorem p_tile2 (v : Vec F S1x256x1024 .f32) : k0_pay24 (k0_pay19 v) (k0_pay22 v) = k0_pay7 v := rfl
theorem lp_tile2 (v : Vec F S1x256x1024 .f32) : k0_pay25 (k0_pay21 v) = k0_pay8 v := rfl

theorem x_tile3 (v : Vec F S1x256x1024 .f32) : k0_pay31 v = k0_pay6 v := rfl
theorem p_tile3 (v : Vec F S1x256x1024 .f32) : k0_pay33 (k0_pay32 v) = k0_pay7 v := rfl
theorem lp_tile3 (v : Vec F S1x256x1024 .f32) : k0_pay34 (k0_pay30 v) = k0_pay8 v := rfl

/-! ### The attention stage: tiles 1, 2, 3 as tile 0's stored value -/

theorem attn_tile1 (pt : Vec F S256x1024 .bf16) (lp xf : Vec F S1024x1024 .bf16) :
    k0_pay38 (k0_pay36 pt lp) (k0_pay37 pt lp) xf = k0_pay35 pt lp xf := rfl
theorem attn_tile2 (pt : Vec F S256x1024 .bf16) (lp xf : Vec F S1024x1024 .bf16) :
    k0_pay39 pt lp xf = k0_pay35 pt lp xf := rfl
theorem attn_tile3 (pt : Vec F S256x1024 .bf16) (lp xf : Vec F S1024x1024 .bf16) :
    k0_pay1 pt lp xf = k0_pay35 pt lp xf := rfl

end Cert.KTiles

end
-- ==== Proof.KSoft.lean ====
/-
  The softmax stage of the kernel read at an index. For a tile `v` of the input (one leading unit axis, 256
  rows, 1024 lanes) the stage drops the unit axis, takes each row's maximum, subtracts it, exponentiates,
  sums each row's exponentials (the denominator), and stores three tiles: the input itself, the
  probabilities `exp (shifted) · (1 / denominator)` and the log-probabilities `shifted - log denominator`.
  With `X r d = v (0, r, d)` these are, entry by entry, the specification's `X`, `probK X` and `logp X`
  (the matrix here is 256 × 1024). Each operation is read at an index by a lemma of its own: the column
  forms of a shape cast `[a] → [a, 1]` and of a broadcast `[a, 1] → [a, b]`, the sum and the maximum along
  the lanes (the maximum starts from the word of `-∞`, which is `⊥`), and the word of `1.0`, which is `1`.
-/
import proofs.«150756_j33964601377283_2_alg».proof.Proof.Gen.KernelIdeal.Skeleton
import proofs.«150756_j33964601377283_2_alg».proof.Proof.Spec
import Idealize.ShloMosaic.Lib.ValueLayout
import Idealize.ShloMosaic.Lib.ValueIdx
import Idealize.ShloMosaic.Lib.IdealHost
import Idealize.ShloMosaic.PureOps.Ideal.Laws

noncomputable section

namespace Cert.KSoft

open Cert.KernelIdeal Cert.KernelIdeal.Gen Idealize.ShloMosaic Idealize.ShloMosaic.ValueIdx

/-- A vector `[a]` cast to the column `[a, 1]` reads, at `(i, u)`, the operand at `i`: both indices have
    row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index `(r, k)` is the row index `r` with the lane coordinate `k` inserted on axis 1. -/
theorem lift_ix1 (h : S256x1024.Reduces [1] S256) (r : Fin 256) (k : Fin 1024) : h.lift (ix1 r) k = ix2 r k := by
  funext c
  match c with
  | ⟨0, _⟩ => rfl
  | ⟨1, _⟩ => rfl

/-- The sum along the lanes of a `[256, 1024]` vector reads, at row `r`, the sum over the lanes `k` of the
    vector at `(r, k)`. -/
theorem laneSum_apply (src : FVec Ideal S256x1024 .f32) (h : S256x1024.Reduces [1] S256) (hφ : FKind.Formats .f32)
    (hacc : (0x00000000#32 : BitVec 32) = 0x00000000#32) (r : Fin 256) :
    multiReduction .add [1] S256 src 0x00000000#32 h hφ hacc (ix1 r) = ∑ k : Fin 1024, src (ix2 r k) := by
  refine (Ideal.multiReduction_add_single src 0x00000000#32 h hφ hacc (ix1 r)).trans ?_
  exact Finset.sum_congr rfl fun k _ => congrArg src (lift_ix1 h r k)

/-- The f32 word `0xFF800000` is `-∞`, the bottom of the extended reals. -/
theorem ofBits_negInf_f32 : Ideal.ofBits .f32 0xFF800000#32 = ⊥ := by simp [Ideal.ofBits, Ideal.ieee]

/-- The maximum along the lanes of a `[256, 1024]` vector, started from the word of `-∞`, reads, at row `r`,
    the maximum from `⊥` of the row's entries. -/
theorem laneMax_apply (src : FVec Ideal S256x1024 .f32) (h : S256x1024.Reduces [1] S256) (hφ : FKind.Formats .f32)
    (hacc : (0xFF800000#32 : BitVec 32) = 0xFF800000#32) (r : Fin 256) :
    multiReduction .maximumf [1] S256 src 0xFF800000#32 h hφ hacc (ix1 r)
      = Cert.KlAttn.vmax (fun k : Fin 1024 => src (ix2 r k)) := by
  refine (Ideal.multiReduction_maximumf_single src 0xFF800000#32 h hφ hacc (ix1 r)).trans ?_
  show (Finset.univ : Finset (Fin 1024)).fold max (Ideal.ofBits .f32 0xFF800000#32)
      (fun k : Fin 1024 => src (h.lift (ix1 r) k))
    = (Finset.univ : Finset (Fin 1024)).fold max ⊥ (fun k : Fin 1024 => src (ix2 r k))
  rw [ofBits_negInf_f32]
  exact congrArg ((Finset.univ : Finset (Fin 1024)).fold max ⊥) (funext fun k => congrArg src (lift_ix1 h r k))

/-- The exponential of a vector reads, at an index, the exponential of the element. -/
theorem exp_apply {s : Shape} {φ : FTy} (x : FVec Ideal s φ) (i : s.Idx) : exp x i = Ideal.exp (x i) := rfl
/-- The logarithm of a vector reads, at an index, the logarithm of the element. -/
theorem log_apply {s : Shape} {φ : FTy} (x : FVec Ideal s φ) (i : s.Idx) : log x i = Ideal.log (x i) := rfl

/-! ### The stage's values, one after another -/

/-- The tile without its unit axis: at `(r, d)` it is the tile at `(0, r, d)`. -/
theorem pay2_apply (v : Vec Ideal S1x256x1024 .f32) (r : Fin 256) (d : Fin 1024) :
    k0_pay2 (F := Ideal) v (ix2 r d) = v (ix3 0 r d) := by
  unfold k0_pay2
  exact shapeCast_1ab_ab_apply _ _ r d

/-- The row minus its maximum is the specification's `shifted`. -/
theorem pay3_apply (v : Vec Ideal S1x256x1024 .f32) (r : Fin 256) (d : Fin 1024) :
    k0_pay3 (F := Ideal) v (ix2 r d) = Cert.KlAttn.shifted (fun r' d' => v (ix3 0 r' d')) r d := by
  unfold k0_pay3
  rw [subf_apply, broadcastTo_a1_ab_apply, shapeCast_a_a1_apply, laneMax_apply]
  simp only [pay2_apply]
  rfl

/-- Its exponential is the specification's `expo`. -/
theorem pay4_apply (v : Vec Ideal S1x256x1024 .f32) (r : Fin 256) (d : Fin 1024) :
    k0_pay4 (F := Ideal) v (ix2 r d) = Cert.KlAttn.expo (fun r' d' => v (ix3 0 r' d')) r d := by
  unfold k0_pay4
  rw [exp_apply, pay3_apply]
  rfl

/-- The row sum of the exponentials, kept as a column, is the specification's `denom`. -/
theorem pay5_apply (v : Vec Ideal S1x256x1024 .f32) (r : Fin 256) (u : Fin 1) :
    k0_pay5 (F := Ideal) v (ix2 r u) = Cert.KlAttn.denom (fun r' d' => v (ix3 0 r' d')) r := by
  unfold k0_pay5
  rw [shapeCast_a_a1_apply, laneSum_apply]
  simp only [pay4_apply]
  rfl

/-! ### The three stored tiles -/

/-- The stored input tile at `(r, d)` is the loaded tile at `(0, r, d)`. -/
theorem x_apply (v : Vec Ideal S1x256x1024 .f32) (r : Fin 256) (d : Fin 1024) :
    k0_pay6 (F := Ideal) v (ix2 r d) = v (ix3 0 r d) := by
  unfold k0_pay6
  rw [shapeCast_self, truncf_apply, pay2_apply]

/-- The stored probabilities are the specification's `probK`: the exponentials times the reciprocal of the
    denominator. -/
theorem p_apply (v : Vec Ideal S1x256x1024 .f32) (r : Fin 256) (d : Fin 1024) :
    k0_pay7 (F := Ideal) v (ix2 r d) = Cert.KlAttn.probK (fun r' d' => v (ix3 0 r' d')) r d := by
  unfold k0_pay7
  rw [shapeCast_self, truncf_apply, mulf_apply, pay4_apply, broadcastTo_a1_ab_apply, divf_apply, broadcast_apply,
    pay5_apply]
  rw [show Scalar.ofBits (F := Ideal) .f32 0x3F800000#32 = 1 from Ideal.ofBits_one_f32]
  rfl

/-- The stored log-probabilities are the specification's `logp`: the shifted row minus the logarithm of the
    denominator. -/
theorem lp_apply (v : Vec Ideal S1x256x1024 .f32) (r : Fin 256) (d : Fin 1024) :
    k0_pay8 (F := Ideal) v (ix2 r d) = Cert.KlAttn.logp (fun r' d' => v (ix3 0 r' d')) r d := by
  unfold k0_pay8
  rw [shapeCast_self, truncf_apply, subf_apply, pay3_apply, broadcastTo_a1_ab_apply, log_apply, pay5_apply]
  rfl

end Cert.KSoft

end
-- ==== Proof.KAttn.lean ====
/-
  The attention stage of the kernel read at an index. For a tile `pt` of the probabilities (256 rows), the
  whole matrix `lp` of log-probabilities and the whole input `xf` (1024 rows each, 1024 lanes), the stage forms
  the cross terms `c r j = ∑ k, pt r k · lp j k` (a product with the transpose of `lp`, into a zero
  accumulator), their exponentials, each row's sum, the weights `exp (c r j) · (1 / ∑ j', exp (c r j'))` and
  the weighted average `∑ j, weight r j · xf j d` of the rows of `xf` (a second product into zero), and
  stores it under a leading unit axis. Each operation is read at an index by a lemma of its own: the
  column forms of a shape cast `[a] → [a, 1]` and of a broadcast `[a, 1] → [a, b]`, the sum along the
  lanes, and the two products; the stage's value at `(0, r, d)` is then their composition.
-/
import proofs.«150756_j33964601377283_2_alg».proof.Proof.Gen.KernelIdeal.Skeleton
import Idealize.ShloMosaic.Lib.ValueLayout
import Idealize.ShloMosaic.Lib.ValueIdx
import Idealize.ShloMosaic.Lib.IdealHost
import Idealize.ShloMosaic.PureOps.Ideal.Laws

noncomputable section

namespace Cert.KAttn

open Cert.KernelIdeal Cert.KernelIdeal.Gen Idealize.ShloMosaic Idealize.ShloMosaic.ValueIdx

/-- A vector `[a]` cast to the column `[a, 1]` reads, at `(i, u)`, the operand at `i`: both indices have
    row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the lanes of a `[256, 1024]` vector reads, at row `r`, the sum over the lanes `k` of the
    vector at `(r, k)`. -/
theorem laneSum_apply (src : FVec Ideal S256x1024 .f32) (h : S256x1024.Reduces [1] S256) (hφ : FKind.Formats .f32)
    (hacc : (0x00000000#32 : BitVec 32) = 0x00000000#32) (r : Fin 256) :
    multiReduction .add [1] S256 src 0x00000000#32 h hφ hacc (ix1 r) = ∑ k : Fin 1024, src (ix2 r k) := by
  refine (Ideal.multiReduction_add_single src 0x00000000#32 h hφ hacc (ix1 r)).trans ?_
  refine Finset.sum_congr rfl fun k _ => congrArg src ?_
  funext c
  match c with
  | ⟨0, _⟩ => rfl
  | ⟨1, _⟩ => rfl

/-! ### The two products' operand indices

The first product contracts axis 1 of both operands; the second contracts axis 1 of its first operand with
axis 0 of its second. At result index `i` and contraction coordinate `q` each operand index has the result's
coordinate on its free axis and `q` on its contracted axis. -/

theorem cross_lhs0 (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide),
    dif_pos (show (0 : Fin S256x1024.rank) ∈ dot_S256x1024_S1024x1024_S256x1024_1_1_0_0_n_n.lhsNonContracting by decide)]
  rfl
theorem cross_lhs1 (i : S256x1024.Idx) (q : dot_S256x1024_S1024x1024_S256x1024_1_1_0_0_n_n.contr.Idx) : (dot_S256x1024_S1024x1024_S256x1024_1_1_0_0_n_n.lhsIdx i q 1).val = (q ⟨0, by decide⟩).val :=
  dot_S256x1024_S1024x1024_S256x1024_1_1_0_0_n_n.lhsIdx_val_of_single rfl i q
theorem cross_rhs0 (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide),
    dif_pos (show (0 : Fin S1024x1024.rank) ∈ dot_S256x1024_S1024x1024_S256x1024_1_1_0_0_n_n.rhsNonContracting by decide)]
  rfl
theorem cross_rhs1 (i : S256x1024.Idx) (q : dot_S256x1024_S1024x1024_S256x1024_1_1_0_0_n_n.contr.Idx) : (dot_S256x1024_S1024x1024_S256x1024_1_1_0_0_n_n.rhsIdx i q 1).val = (q ⟨0, by decide⟩).val :=
  dot_S256x1024_S1024x1024_S256x1024_1_1_0_0_n_n.rhsIdx_val_of_single rfl i q
theorem avg_lhs0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem avg_lhs1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem avg_rhs0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem avg_rhs1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- The first product, into a zero accumulator, contracts the lanes of both operands (a product with the
    transpose of the second): at `(r, j)` it is `∑ k, pt (r, k) · lp (j, k)`. -/
theorem cross_apply (pt : FVec Ideal S256x1024 .bf16) (lp : FVec Ideal S1024x1024 .bf16) (r : Fin 256) (j : Fin 1024) :
    matmul dot_S256x1024_S1024x1024_S256x1024_1_1_0_0_n_n none pt lp (constant (F := Ideal) S256x1024 .f32 0x00000000#32) (ix2 r j)
      = ∑ k : Fin 1024, pt (ix2 r k) * lp (ix2 j k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r j) ((contrEquiv1 dot_S256x1024_S1024x1024_S256x1024_1_1_0_0_n_n 1024 rfl rfl).symm k) = ix2 r k := funext fun a => Fin.ext (by
    match a with
    | ⟨0, _⟩ => exact cross_lhs0 _ _
    | ⟨1, _⟩ => exact (cross_lhs1 _ _).trans hk)
  have er : dot_S256x1024_S1024x1024_S256x1024_1_1_0_0_n_n.rhsIdx (ix2 r j) ((contrEquiv1 dot_S256x1024_S1024x1024_S256x1024_1_1_0_0_n_n 1024 rfl rfl).symm k) = ix2 j k := funext fun a => Fin.ext (by
    match a with
    | ⟨0, _⟩ => exact cross_rhs0 _ _
    | ⟨1, _⟩ => exact (cross_rhs1 _ _).trans hk)
  rw [el, er]

/-- The second product, into a zero accumulator, contracts the lanes of the first operand with the rows of
    the second: at `(r, d)` it is `∑ j, w (r, j) · xf (j, d)`. -/
theorem avg_apply (w : FVec Ideal S256x1024 .bf16) (xf : FVec Ideal S1024x1024 .bf16) (r : Fin 256) (d : Fin 1024) :
    matmul dot_S256x1024_S1024x1024_S256x1024_1_0_0_1_n_n none w xf (constant (F := Ideal) S256x1024 .f32 0x00000000#32) (ix2 r d)
      = ∑ j : Fin 1024, w (ix2 r j) * xf (ix2 j d) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r d) ((contrEquiv1 dot_S256x1024_S1024x1024_S256x1024_1_0_0_1_n_n 1024 rfl rfl).symm k) = ix2 r k := funext fun a => Fin.ext (by
    match a with
    | ⟨0, _⟩ => exact avg_lhs0 _ _
    | ⟨1, _⟩ => exact (avg_lhs1 _ _).trans hk)
  have er : dot_S256x1024_S1024x1024_S256x1024_1_0_0_1_n_n.rhsIdx (ix2 r d) ((contrEquiv1 dot_S256x1024_S1024x1024_S256x1024_1_0_0_1_n_n 1024 rfl rfl).symm k) = ix2 k d := funext fun a => Fin.ext (by
    match a with
    | ⟨0, _⟩ => exact (avg_rhs0 _ _).trans hk
    | ⟨1, _⟩ => exact avg_rhs1 _ _)
  rw [el, er]

/-- The exponential of a vector reads, at an index, the exponential of the element. -/
theorem exp_apply {s : Shape} {φ : FTy} (x : FVec Ideal s φ) (i : s.Idx) : exp x i = Ideal.exp (x i) := rfl

/-- The attention stage's stored tile at `(0, r, d)`: the rows `j` of `xf` at lane `d` averaged with the weights
    `exp (c r j) · (1 / ∑ j', exp (c r j'))`, where `c r j = ∑ k, pt (r, k) · lp (j, k)`. -/
theorem attn_apply (pt : Vec Ideal S256x1024 .bf16) (lp xf : Vec Ideal S1024x1024 .bf16) (r : Fin 256) (d : Fin 1024) :
    k0_pay35 (F := Ideal) pt lp xf (ix3 0 r d)
      = ∑ j : Fin 1024, (Ideal.exp (∑ k : Fin 1024, pt (ix2 r k) * lp (ix2 j k))
            * Ideal.div 1 (∑ j' : Fin 1024, Ideal.exp (∑ k : Fin 1024, pt (ix2 r k) * lp (ix2 j' k)))) * xf (ix2 j d) := by
  unfold k0_pay35
  -- the leading unit axis, then the second product
  refine (shapeCast_ab_1ab_apply _ _ 0 r d).trans ?_
  refine (avg_apply _ xf r d).trans ?_
  refine Finset.sum_congr rfl fun j _ => congrArg (· * xf (ix2 j d)) ?_
  -- the weight at (r, j): the exponential of the cross term times the broadcast reciprocal of the row sum
  rw [truncf_apply, mulf_apply, exp_apply, cross_apply, broadcastTo_a1_ab_apply, divf_apply, broadcast_apply,
    shapeCast_a_a1_apply, laneSum_apply]
  simp only [exp_apply, cross_apply]
  rw [show FloatOps.ofBits (F := Ideal) .f32 0x3F800000#32 = 1 from Ideal.ofBits_one_f32]

end Cert.KAttn

end
-- ==== Proof.KBody.lean ====
/-
  What the kernel's body leaves in its output block, read at an index.

  The body works on one batch slice, the `[1, 1024, 1024]` input block `x0`, read as the matrix `mat x0`. In four
  tiles of 256 rows it first stores, in three `[1024, 1024]` scratch buffers, the rows of `x`, of the probabilities
  `p = softmax x` and of `logp = log_softmax x`: each stored tile is a function of the loaded tile's rows alone
  (Proof/KSoft.lean), and a row's softmax depends on that row only (Proof/SpecRows.lean), so each scratch buffer, read
  back whole, is one function of the block: `scratch_read`, from the library's reading of a list of written pieces that
  are blocks of one function. Then, again tile by tile, it stores into the output block the attention of a tile of `p`
  against the whole `logp` and the whole `x` (Proof/KAttn.lean): with the scratch contents known this is rows
  `o … o + 255` of `outK (mat x0)` (`attn_tile`), and the four stored tiles make up the block (`out_read`).
  The four tiles' stored values are spelt differently by the printed body; Proof/KTiles.lean reduces them to the first's.
-/
import proofs.«150756_j33964601377283_2_alg».proof.Proof.Gen.KernelIdeal.Frame
import proofs.«150756_j33964601377283_2_alg».proof.Proof.Whole
import proofs.«150756_j33964601377283_2_alg».proof.Proof.SpecRows
import proofs.«150756_j33964601377283_2_alg».proof.Proof.KTiles
import proofs.«150756_j33964601377283_2_alg».proof.Proof.KSoft
import proofs.«150756_j33964601377283_2_alg».proof.Proof.KAttn
import Idealize.ShloMosaic.Lib.ValueIdx
import Idealize.ShloMosaic.Lib.Pipeline.Value
import Idealize.ShloMosaic.Lib.Pipeline.FrameBody

set_option maxRecDepth 16384

noncomputable section

namespace Cert.KBody

open Cert.KernelIdeal Cert.KernelIdeal.Gen Idealize.ShloMosaic Idealize.ShloMosaic.TcCoe Idealize.ShloMosaic.ValueIdx Idealize.ShloMosaic.Tactic

/-! ### A row tile inside the block and inside a scratch buffer -/

/-- The input block (one batch slice, `[1, 1024, 1024]`) as a `1024 × 1024` matrix. -/
abbrev mat (x0 : Vec Ideal S1x1024x1024 .f32) : Fin 1024 → Fin 1024 → EReal := fun i d => x0 (ix3 0 i d)

/-- Row `r` of the 256-row tile that starts at row `o`, as a row of the whole block. -/
abbrev grow (o : ℕ) (ho : o + 256 ≤ 1024) (r : Fin 256) : Fin 1024 := ⟨o + r.val, by have := r.isLt; omega⟩

/-- A tile of the input block, read at `(0, r, d)`, is the block at row `o + r`. -/
theorem ld_tile (x0 : Vec Ideal S1x1024x1024 .f32) (o : ℕ) (ho : o + 256 ≤ 1024)
    (h : ∀ a, (![0, o, 0] : Fin 3 → ℕ) a + (![1, 256, 1024] : Fin 3 → ℕ) a ≤ S1x1024x1024.size a) (r : Fin 256) (d : Fin 1024) :
    View.ld x0 (Rect.unit ![0, o, 0] ![1, 256, 1024] h) (ix3 0 r d) = mat x0 (grow o ho r) d := by
  show x0 _ = x0 _
  congr 1
  funext a
  apply Fin.ext
  match a with
  | ⟨0, _⟩ => simp
  | ⟨1, _⟩ => simp
  | ⟨2, _⟩ => simp

/-- A local index of a row tile of a `[1024, 1024]` scratch, placed in the scratch. -/
theorem sc_idx (o : ℕ) (ho : o + 256 ≤ 1024)
    (h : ∀ a, (![o, 0] : Fin 2 → ℕ) a + (![256, 1024] : Fin 2 → ℕ) a ≤ S1024x1024.size a) (r : Fin 256) (d : Fin 1024) :
    (Rect.unit (s := S1024x1024) ![o, 0] ![256, 1024] h).idx (ix2 r d) = ix2 (grow o ho r) d := by
  funext a
  apply Fin.ext
  match a with
  | ⟨0, _⟩ => simp
  | ⟨1, _⟩ => simp

/-- An index of a `[1024, 1024]` scratch read through the whole-buffer rectangle is itself. -/
theorem whole_idx (h : ∀ a, (![0, 0] : Fin 2 → ℕ) a + (![1024, 1024] : Fin 2 → ℕ) a ≤ S1024x1024.size a) (j k : Fin 1024) :
    (Rect.unit (s := S1024x1024) ![0, 0] ![1024, 1024] h).idx (ix2 j k) = ix2 j k := by
  funext a
  apply Fin.ext
  match a with
  | ⟨0, _⟩ => simp
  | ⟨1, _⟩ => simp

/-- A local index of a row tile of the `[1, 1024, 1024]` output block, placed in the block. -/
theorem out_idx (o : ℕ) (ho : o + 256 ≤ 1024)
    (h : ∀ a, (![0, o, 0] : Fin 3 → ℕ) a + (![1, 256, 1024] : Fin 3 → ℕ) a ≤ S1x1024x1024.size a) (r : Fin 256) (d : Fin 1024) :
    (Rect.unit (s := S1x1024x1024) ![0, o, 0] ![1, 256, 1024] h).idx (ix3 0 r d) = ix3 0 (grow o ho r) d := by
  funext a
  apply Fin.ext
  match a with
  | ⟨0, _⟩ => simp
  | ⟨1, _⟩ => simp
  | ⟨2, _⟩ => simp

/-- A `[1024, 1024]` buffer written in four tiles of 256 rows, tile `k` holding rows `256 k …` of one function `G`,
    reads back as `G`. -/
theorem scratch_read {e : EltTy} (G : Fin 1024 → Fin 1024 → Elt Ideal e)
    (w0 w1 w2 w3 : (⟨2, ![256, 1024]⟩ : Shape).Idx → Elt Ideal e)
    (h0 : ∀ a, (![0, 0] : Fin 2 → ℕ) a + (![256, 1024] : Fin 2 → ℕ) a ≤ S1024x1024.size a)
    (h1 : ∀ a, (![256, 0] : Fin 2 → ℕ) a + (![256, 1024] : Fin 2 → ℕ) a ≤ S1024x1024.size a)
    (h2 : ∀ a, (![512, 0] : Fin 2 → ℕ) a + (![256, 1024] : Fin 2 → ℕ) a ≤ S1024x1024.size a)
    (h3 : ∀ a, (![768, 0] : Fin 2 → ℕ) a + (![256, 1024] : Fin 2 → ℕ) a ≤ S1024x1024.size a)
    (hw0 : ∀ r d, w0 (ix2 r d) = G (grow 0 (by norm_num) r) d)
    (hw1 : ∀ r d, w1 (ix2 r d) = G (grow 256 (by norm_num) r) d)
    (hw2 : ∀ r d, w2 (ix2 r d) = G (grow 512 (by norm_num) r) d)
    (hw3 : ∀ r d, w3 (ix2 r d) = G (grow 768 (by norm_num) r) d)
    (y : S1024x1024.Idx) :
    View.canon [(⟨Rect.unit ![768, 0] ![256, 1024] h3, w3⟩ : View.Piece (Elt Ideal) S1024x1024 e),
        ⟨Rect.unit ![512, 0] ![256, 1024] h2, w2⟩, ⟨Rect.unit ![256, 0] ![256, 1024] h1, w1⟩,
        ⟨Rect.unit ![0, 0] ![256, 1024] h0, w0⟩] y = G (y 0) (y 1) := by
  refine View.canon_apply_of_pieces (fun y => G (y 0) (y 1)) _ ?_ y
    (View.cover_of_tiledL _ ![256, 1024] (by sl_kernel_rfl) y)
  intro p hp x
  simp only [List.mem_cons, List.not_mem_nil, or_false] at hp
  rcases hp with rfl | rfl | rfl | rfl
  · obtain ⟨r, d, rfl⟩ : ∃ (r : Fin 256) (d : Fin 1024), x = ix2 r d := ⟨x 0, x 1, eq_ix2 x⟩
    show w3 (ix2 r d) = (fun y : S1024x1024.Idx => G (y 0) (y 1)) ((Rect.unit (s := S1024x1024) ![768, 0] ![256, 1024] h3).idx (ix2 r d))
    rw [sc_idx 768 (by norm_num) h3 r d, hw3]
  · obtain ⟨r, d, rfl⟩ : ∃ (r : Fin 256) (d : Fin 1024), x = ix2 r d := ⟨x 0, x 1, eq_ix2 x⟩
    show w2 (ix2 r d) = (fun y : S1024x1024.Idx => G (y 0) (y 1)) ((Rect.unit (s := S1024x1024) ![512, 0] ![256, 1024] h2).idx (ix2 r d))
    rw [sc_idx 512 (by norm_num) h2 r d, hw2]
  · obtain ⟨r, d, rfl⟩ : ∃ (r : Fin 256) (d : Fin 1024), x = ix2 r d := ⟨x 0, x 1, eq_ix2 x⟩
    show w1 (ix2 r d) = (fun y : S1024x1024.Idx => G (y 0) (y 1)) ((Rect.unit (s := S1024x1024) ![256, 0] ![256, 1024] h1).idx (ix2 r d))
    rw [sc_idx 256 (by norm_num) h1 r d, hw1]
  · obtain ⟨r, d, rfl⟩ : ∃ (r : Fin 256) (d : Fin 1024), x = ix2 r d := ⟨x 0, x 1, eq_ix2 x⟩
    show w0 (ix2 r d) = (fun y : S1024x1024.Idx => G (y 0) (y 1)) ((Rect.unit (s := S1024x1024) ![0, 0] ![256, 1024] h0).idx (ix2 r d))
    rw [sc_idx 0 (by norm_num) h0 r d, hw0]

/-- An index of a `[1, 256, 1024]` tile has leading coordinate `0`. -/
theorem eq_ix3_unit (x : (⟨3, ![1, 256, 1024]⟩ : Shape).Idx) : x = ix3 0 (x 1) (x 2) := by
  funext a
  match a with
  | ⟨0, _⟩ => exact Fin.ext (by have : (x 0).val < 1 := (x 0).isLt; show (x 0).val = 0; omega)
  | ⟨1, _⟩ => rfl
  | ⟨2, _⟩ => rfl

/-- The `[1, 1024, 1024]` output block written in four tiles of 256 rows, tile `k` holding rows `256 k …` of one
    function `G`, reads back as `G`. -/
theorem out_read (G : Fin 1024 → Fin 1024 → Elt Ideal .f32)
    (w0 w1 w2 w3 : (⟨3, ![1, 256, 1024]⟩ : Shape).Idx → Elt Ideal .f32)
    (h0 : ∀ a, (![0, 0, 0] : Fin 3 → ℕ) a + (![1, 256, 1024] : Fin 3 → ℕ) a ≤ S1x1024x1024.size a)
    (h1 : ∀ a, (![0, 256, 0] : Fin 3 → ℕ) a + (![1, 256, 1024] : Fin 3 → ℕ) a ≤ S1x1024x1024.size a)
    (h2 : ∀ a, (![0, 512, 0] : Fin 3 → ℕ) a + (![1, 256, 1024] : Fin 3 → ℕ) a ≤ S1x1024x1024.size a)
    (h3 : ∀ a, (![0, 768, 0] : Fin 3 → ℕ) a + (![1, 256, 1024] : Fin 3 → ℕ) a ≤ S1x1024x1024.size a)
    (hw0 : ∀ r d, w0 (ix3 0 r d) = G (grow 0 (by norm_num) r) d)
    (hw1 : ∀ r d, w1 (ix3 0 r d) = G (grow 256 (by norm_num) r) d)
    (hw2 : ∀ r d, w2 (ix3 0 r d) = G (grow 512 (by norm_num) r) d)
    (hw3 : ∀ r d, w3 (ix3 0 r d) = G (grow 768 (by norm_num) r) d)
    (i d : Fin 1024) :
    View.canon [(⟨Rect.unit ![0, 768, 0] ![1, 256, 1024] h3, w3⟩ : View.Piece (Elt Ideal) S1x1024x1024 .f32),
        ⟨Rect.unit ![0, 512, 0] ![1, 256, 1024] h2, w2⟩, ⟨Rect.unit ![0, 256, 0] ![1, 256, 1024] h1, w1⟩,
        ⟨Rect.unit ![0, 0, 0] ![1, 256, 1024] h0, w0⟩] (ix3 0 i d) = G i d := by
  refine View.canon_apply_of_pieces (fun y : S1x1024x1024.Idx => G (y 1) (y 2)) _ ?_ (ix3 0 i d)
    (View.cover_of_tiledL _ ![1, 256, 1024] (by sl_kernel_rfl) (ix3 0 i d))
  intro p hp x
  simp only [List.mem_cons, List.not_mem_nil, or_false] at hp
  rcases hp with rfl | rfl | rfl | rfl
  · obtain ⟨r, d, rfl⟩ : ∃ (r : Fin 256) (d : Fin 1024), x = ix3 0 r d :=
      ⟨x 1, x 2, eq_ix3_unit x⟩
    show w3 (ix3 0 r d) = (fun y : S1x1024x1024.Idx => G (y 1) (y 2)) ((Rect.unit (s := S1x1024x1024) ![0, 768, 0] ![1, 256, 1024] h3).idx (ix3 0 r d))
    rw [out_idx 768 (by norm_num) h3 r d, hw3]
  · obtain ⟨r, d, rfl⟩ : ∃ (r : Fin 256) (d : Fin 1024), x = ix3 0 r d :=
      ⟨x 1, x 2, eq_ix3_unit x⟩
    show w2 (ix3 0 r d) = (fun y : S1x1024x1024.Idx => G (y 1) (y 2)) ((Rect.unit (s := S1x1024x1024) ![0, 512, 0] ![1, 256, 1024] h2).idx (ix3 0 r d))
    rw [out_idx 512 (by norm_num) h2 r d, hw2]
  · obtain ⟨r, d, rfl⟩ : ∃ (r : Fin 256) (d : Fin 1024), x = ix3 0 r d :=
      ⟨x 1, x 2, eq_ix3_unit x⟩
    show w1 (ix3 0 r d) = (fun y : S1x1024x1024.Idx => G (y 1) (y 2)) ((Rect.unit (s := S1x1024x1024) ![0, 256, 0] ![1, 256, 1024] h1).idx (ix3 0 r d))
    rw [out_idx 256 (by norm_num) h1 r d, hw1]
  · obtain ⟨r, d, rfl⟩ : ∃ (r : Fin 256) (d : Fin 1024), x = ix3 0 r d :=
      ⟨x 1, x 2, eq_ix3_unit x⟩
    show w0 (ix3 0 r d) = (fun y : S1x1024x1024.Idx => G (y 1) (y 2)) ((Rect.unit (s := S1x1024x1024) ![0, 0, 0] ![1, 256, 1024] h0).idx (ix3 0 r d))
    rw [out_idx 0 (by norm_num) h0 r d, hw0]

/-! ### The softmax stage on the tile at row `o`: the three stored tiles are rows `o …` of `p`, `logp` and `x` -/

theorem x_tile (x0 : Vec Ideal S1x1024x1024 .f32) (o : ℕ) (ho : o + 256 ≤ 1024)
    (h : ∀ a, (![0, o, 0] : Fin 3 → ℕ) a + (![1, 256, 1024] : Fin 3 → ℕ) a ≤ S1x1024x1024.size a) (r : Fin 256) (d : Fin 1024) :
    k0_pay6 (F := Ideal) (View.ld x0 (Rect.unit ![0, o, 0] ![1, 256, 1024] h)) (ix2 r d) = mat x0 (grow o ho r) d := by
  rw [KSoft.x_apply, ld_tile x0 o ho h r d]

theorem p_tile (x0 : Vec Ideal S1x1024x1024 .f32) (o : ℕ) (ho : o + 256 ≤ 1024)
    (h : ∀ a, (![0, o, 0] : Fin 3 → ℕ) a + (![1, 256, 1024] : Fin 3 → ℕ) a ≤ S1x1024x1024.size a) (r : Fin 256) (d : Fin 1024) :
    k0_pay7 (F := Ideal) (View.ld x0 (Rect.unit ![0, o, 0] ![1, 256, 1024] h)) (ix2 r d) = Cert.KlAttn.probK (mat x0) (grow o ho r) d := by
  rw [KSoft.p_apply]
  exact congrFun (Cert.KlAttn.probK_row _ (mat x0) r (grow o ho r) (funext fun d' => ld_tile x0 o ho h r d')) d

theorem lp_tile (x0 : Vec Ideal S1x1024x1024 .f32) (o : ℕ) (ho : o + 256 ≤ 1024)
    (h : ∀ a, (![0, o, 0] : Fin 3 → ℕ) a + (![1, 256, 1024] : Fin 3 → ℕ) a ≤ S1x1024x1024.size a) (r : Fin 256) (d : Fin 1024) :
    k0_pay8 (F := Ideal) (View.ld x0 (Rect.unit ![0, o, 0] ![1, 256, 1024] h)) (ix2 r d) = Cert.KlAttn.logp (mat x0) (grow o ho r) d := by
  rw [KSoft.lp_apply]
  exact congrFun (Cert.KlAttn.logp_row _ (mat x0) r (grow o ho r) (funext fun d' => ld_tile x0 o ho h r d')) d

/-! ### The attention stage on the tile at row `o` -/

/-- With the three scratch buffers holding `p`, `logp` and `x` of the block, the attention stage's stored tile is rows
    `o …` of `outK`. -/
theorem attn_tile (X : Fin 1024 → Fin 1024 → EReal) (o : ℕ) (ho : o + 256 ≤ 1024)
    (P LP XB : S1024x1024.Idx → EReal)
    (hP : ∀ y, P y = Cert.KlAttn.probK X (y 0) (y 1)) (hLP : ∀ y, LP y = Cert.KlAttn.logp X (y 0) (y 1)) (hXB : ∀ y, XB y = X (y 0) (y 1))
    (hs : ∀ a, (![o, 0] : Fin 2 → ℕ) a + (![256, 1024] : Fin 2 → ℕ) a ≤ S1024x1024.size a)
    (hw : ∀ a, (![0, 0] : Fin 2 → ℕ) a + (![1024, 1024] : Fin 2 → ℕ) a ≤ S1024x1024.size a)
    (r : Fin 256) (d : Fin 1024) :
    k0_pay35 (F := Ideal) (fun j => P ((Rect.unit (s := S1024x1024) ![o, 0] ![256, 1024] hs).idx j))
        (fun j => LP ((Rect.unit (s := S1024x1024) ![0, 0] ![1024, 1024] hw).idx j))
        (fun j => XB ((Rect.unit (s := S1024x1024) ![0, 0] ![1024, 1024] hw).idx j)) (ix3 0 r d)
      = Cert.KlAttn.outK X (grow o ho r) d := by
  rw [KAttn.attn_apply]
  simp only [sc_idx o ho hs, whole_idx hw, hP, hLP, hXB]
  rfl

/-! ### The body -/

/-- The output block after the body, at `(0, r, d)`, is `outK` of the input block read as a matrix: the run's four
    output pieces are the attention stage on the four tiles, over the scratch contents the softmax stage left. -/
theorem out_apply (c : Dev nD) (i : grid0.Coords) (arg1 : Memref sig .tc .vmem S1x1024x1024 .f32) (harg1 : arg1.IsWhole)
    (arg2 : Memref sig .tc .vmem S1x1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024x1024 .bf16) (harg5 : arg5.IsWhole)
    (x0 : Vec Ideal S1x1024x1024 .f32) (r d : Fin 1024) :
    out0_A_1 (F := Ideal) c i arg1 harg1 arg2 harg2 arg3 harg3 arg4 harg4 arg5 harg5 x0 (ix3 0 r d)
      = Cert.KlAttn.outK (fun i' d' => x0 (ix3 0 i' d')) r d := by
  unfold out0_A_1
  rw [View.read_writes_junk_eq_canon]
  unfold kernelRun0_A
  dsimp only
  sl_unfold_run_names
  simp only [KTiles.x_tile1, KTiles.p_tile1, KTiles.lp_tile1, KTiles.x_tile2, KTiles.p_tile2, KTiles.lp_tile2,
    KTiles.x_tile3, KTiles.p_tile3, KTiles.lp_tile3, KTiles.attn_tile1, KTiles.attn_tile2, KTiles.attn_tile3,
    View.readCov_eq_canon', View.readAt_eq_ld, harg1.read_unread]
  have hP := fun h0 h1 h2 h3 g0 g1 g2 g3 => scratch_read (e := .bf16) (Cert.KlAttn.probK (mat x0)) _ _ _ _ h0 h1 h2 h3
    (p_tile x0 0 (by norm_num) g0) (p_tile x0 256 (by norm_num) g1) (p_tile x0 512 (by norm_num) g2) (p_tile x0 768 (by norm_num) g3)
  have hLP := fun h0 h1 h2 h3 g0 g1 g2 g3 => scratch_read (e := .bf16) (Cert.KlAttn.logp (mat x0)) _ _ _ _ h0 h1 h2 h3
    (lp_tile x0 0 (by norm_num) g0) (lp_tile x0 256 (by norm_num) g1) (lp_tile x0 512 (by norm_num) g2) (lp_tile x0 768 (by norm_num) g3)
  have hXB := fun h0 h1 h2 h3 g0 g1 g2 g3 => scratch_read (e := .bf16) (mat x0) _ _ _ _ h0 h1 h2 h3
    (x_tile x0 0 (by norm_num) g0) (x_tile x0 256 (by norm_num) g1) (x_tile x0 512 (by norm_num) g2) (x_tile x0 768 (by norm_num) g3)
  refine out_read (Cert.KlAttn.outK (mat x0)) _ _ _ _ _ _ _ _ ?_ ?_ ?_ ?_ r d
  · exact attn_tile (mat x0) 0 (by norm_num) _ _ _ (hP _ _ _ _ _ _ _ _) (hLP _ _ _ _ _ _ _ _) (hXB _ _ _ _ _ _ _ _) _ _
  · exact attn_tile (mat x0) 256 (by norm_num) _ _ _ (hP _ _ _ _ _ _ _ _) (hLP _ _ _ _ _ _ _ _) (hXB _ _ _ _ _ _ _ _) _ _
  · exact attn_tile (mat x0) 512 (by norm_num) _ _ _ (hP _ _ _ _ _ _ _ _) (hLP _ _ _ _ _ _ _ _) (hXB _ _ _ _ _ _ _ _) _ _
  · exact attn_tile (mat x0) 768 (by norm_num) _ _ _ (hP _ _ _ _ _ _ _ _) (hLP _ _ _ _ _ _ _ _) (hXB _ _ _ _ _ _ _ _) _ _

end Cert.KBody

end
-- ==== Proof.KArray.lean ====
/-
  From what the kernel's body leaves in its output block at one grid point to the kernel's whole
  result array as one function of its argument.

  The grid has 32 points, one per batch slice.  At point t the input window stages block (t, 0, 0)
  of the argument, a [1, 1024, 1024] block: batch slice t.  The output window writes its
  [1, 1024, 1024] block back at block index (t, 0, 0) of the result.  The three scratch buffers are
  rewritten whole inside every point before they are read, so the output block at point t is a
  function of input block t alone: entry (0, i, d) of it is the kernel's side of the specification,
  outK, of that block read as a 1024 x 1024 matrix, at (i, d).

  Hence: entry (0, i, d) of what point t writes back is  outK (slice A t) i d  =  wholeK A (t, i, d),
  that is, the write-back of point t is block t of the single function  wholeK A  of the argument
  array A; index (b, i, d) of the result is covered by the block of point b; so the result array
  after the run is  wholeK A, and the argument is unchanged.
-/
import proofs.«150756_j33964601377283_2_alg».proof.Proof.Gen.KernelIdeal.Value
import proofs.«150756_j33964601377283_2_alg».proof.Proof.KBody
import proofs.«150756_j33964601377283_2_alg».proof.Proof.Whole
import Idealize.ShloMosaic.Lib.Pipeline.Value
import Idealize.ShloMosaic.Lib.ValueIdx

set_option maxRecDepth 16384

noncomputable section

namespace Cert.KArray

open Cert.KernelIdeal Cert.KernelIdeal.Gen Idealize.ShloMosaic Idealize.ShloMosaic.TcCoe Idealize.SL.Sem
open Idealize.ShloMosaic.ValueIdx
open Idealize.ShloMosaic.Pipeline (Dat)

/-- The two index maps, decided once over the 32 grid points: at point t both the input window and the
    output window sit at block index (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- A grid point as a batch index. -/
abbrev batch (t : Fin cfg0.N) : Fin 32 := t.cast N_0

/-- The input window's block at point t, read at an index x of the block, is the argument array at the
    index whose batch coordinate is t and whose other two coordinates are x's: a block's element sits
    in the array, on each axis, at block index times block size plus its coordinate inside the block,
    and the block index is (t, 0, 0) with block sizes (1, 1024, 1024). -/
theorem iblk_apply (m : (ℓ : Loc nD τ sig) → Buf (Elt Ideal) ℓ) (c : Dev nD) (t : Fin cfg0.N)
    (x : S1x1024x1024.Idx) (k : S32x1024x1024.Idx)
    (hk0 : (k 0).val = t.val) (hk1 : (k 1).val = (x 1).val) (hk2 : (k 2).val = (x 2).val) :
    (iblk m c 0 t : Vec Ideal S1x1024x1024 .f32) x
      = (m ((c : Thread nD τ).loc main_arg0) : S32x1024x1024.Idx → EReal) k := by
  obtain ⟨e0, e1, e2, -, -, -⟩ := idx_facts t
  have hx0 : (x 0).val < 1 := (x 0).isLt
  unfold iblk
  rw [View.read_apply]
  show V m c main_arg0 _ = m (c.tc.loc main_arg0) _
  unfold V
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 1024 + 1 * (x 1).val = (k 1).val; rw [e1, hk1]; omega
  | ⟨2, _⟩ => show win0_0.index t (2 : Fin 3) * 1024 + 1 * (x 2).val = (k 2).val; rw [e2, hk2]; omega

/-- What the body leaves in the output block at point t, at (0, r, d), is the whole-array function of
    the argument at (t, r, d): the body's block is outK of input block t as a matrix, and input block t
    as a matrix is batch slice t of the argument. -/
theorem block_at_ix (m : (ℓ : Loc nD τ sig) → Buf (Elt Ideal) ℓ) (c : Dev nD) (t : Fin cfg0.N) (r d : Fin 1024) :
    out0_A_1 (F := Ideal) c (grid0.coords t) (ms0_0 t) (hs0_0 t) (ms0_1 t) (hs0_1 t) scM0_0 (Memref.isWhole_whole _)
        scM0_1 (Memref.isWhole_whole _) scM0_2 (Memref.isWhole_whole _) (iblk m c 0 t) (ix3 0 r d)
      = Cert.KlAttn.wholeK (m ((c : Thread nD τ).loc main_arg0)) (ix3 (batch t) r d) := by
  refine (Cert.KBody.out_apply c (grid0.coords t) (ms0_0 t) (hs0_0 t) (ms0_1 t) (hs0_1 t) scM0_0 (Memref.isWhole_whole _)
    scM0_1 (Memref.isWhole_whole _) scM0_2 (Memref.isWhole_whole _) (iblk m c 0 t) r d).trans ?_
  rw [Cert.KlAttn.wholeK_ix3]
  refine congrArg (fun X : Fin 1024 → Fin 1024 → EReal => Cert.KlAttn.outK X r d) ?_
  funext i' d'
  exact iblk_apply m c t (ix3 0 i' d') (ix3 (batch t) i' d') rfl rfl rfl

/-- The same at ANY index y of the [1, 1024, 1024] block: the leading coordinate of y is 0 (the axis has
    extent 1). -/
theorem block_at (m : (ℓ : Loc nD τ sig) → Buf (Elt Ideal) ℓ) (c : Dev nD) (t : Fin cfg0.N) (y : S1x1024x1024.Idx) :
    out0_A_1 (F := Ideal) c (grid0.coords t) (ms0_0 t) (hs0_0 t) (ms0_1 t) (hs0_1 t) scM0_0 (Memref.isWhole_whole _)
        scM0_1 (Memref.isWhole_whole _) scM0_2 (Memref.isWhole_whole _) (iblk m c 0 t) y
      = Cert.KlAttn.wholeK (m ((c : Thread nD τ).loc main_arg0)) (ix3 (batch t) (y 1) (y 2)) := by
  obtain ⟨a, r, d, rfl⟩ : ∃ (a : Fin 1) (r d : Fin 1024), y = ix3 a r d := ⟨y 0, y 1, y 2, eq_ix3 y⟩
  obtain rfl : a = 0 := Subsingleton.elim _ _
  exact block_at_ix m c t r d

/-- WHAT POINT t WRITES BACK is block t of the whole-array function of the argument. -/
theorem flushed_eq (m : (ℓ : Loc nD τ sig) → Buf (Elt Ideal) ℓ) (c : Dev nD) (t : Fin cfg0.N) :
    (dats m 0 c).flushed 1 t
      = ((cfg0.win 1).blk t).view.read (Elt Ideal) (Cert.KlAttn.wholeK (m ((c : Thread nD τ).loc main_arg0))) := by
  rw [Cert.KernelIdeal.Value.flushed1_A]
  obtain ⟨-, -, -, e0, e1, e2⟩ := idx_facts t
  funext y
  refine (block_at m c t y).trans ?_
  rw [View.read_apply]
  show Cert.KlAttn.wholeK (m ((c : Thread nD τ).loc main_arg0)) _
    = Cert.KlAttn.wholeK (m ((c : Thread nD τ).loc main_arg0)) (((cfg0.win 1).blk t).view.emb y)
  refine congrArg (Cert.KlAttn.wholeK (m ((c : Thread nD τ).loc main_arg0))) ?_
  -- the block's element y sits in the array at block index times block size plus y's coordinate
  have hy0 : (y 0).val < 1 := (y 0).isLt
  funext a
  apply Fin.ext
  match a with
  | ⟨0, _⟩ => show t.val = win0_1.index t (0 : Fin 3) * 1 + 1 * (y 0).val; rw [e0]; omega
  | ⟨1, _⟩ => show (y 1).val = win0_1.index t (1 : Fin 3) * 1024 + 1 * (y 1).val; rw [e1]; omega
  | ⟨2, _⟩ => show (y 2).val = win0_1.index t (2 : Fin 3) * 1024 + 1 * (y 2).val; rw [e2]; omega

/-- An index of the result array is in point t's block iff each coordinate is in the block's range on
    its axis. -/
theorem mem_blk (t : Fin cfg0.N) (i : S32x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- THE COVER: index (b, i, d) of the result lies in the block of grid point b, and every point writes
    its block back. -/
theorem cover (j : S32x1024x1024.Idx) :
    ∃ t : Fin cfg0.N, (cfg0.win 1).flush t = true ∧ j ∈ ((cfg0.win 1).blk t).view.set := by
  have h0 : (j 0).val < 32 := (j 0).isLt
  have h1 : (j 1).val < 1024 := (j 1).isLt
  have h2 : (j 2).val < 1024 := (j 2).isLt
  have hN : cfg0.N = 32 := N_0
  refine ⟨⟨(j 0).val, by omega⟩, flush0_1 _, ?_⟩
  obtain ⟨-, -, -, e0, e1, e2⟩ := idx_facts ⟨(j 0).val, by omega⟩
  rw [mem_blk]
  intro a
  match a with
  | ⟨0, _⟩ =>
    show win0_1.index _ (0 : Fin 3) * 1 ≤ (j 0).val ∧ (j 0).val < win0_1.index _ (0 : Fin 3) * 1 + 1
    rw [e0]; show (j 0).val * 1 ≤ (j 0).val ∧ (j 0).val < (j 0).val * 1 + 1; omega
  | ⟨1, _⟩ =>
    show win0_1.index _ (1 : Fin 3) * 1024 ≤ (j 1).val ∧ (j 1).val < win0_1.index _ (1 : Fin 3) * 1024 + 1024
    rw [e1]; omega
  | ⟨2, _⟩ =>
    show win0_1.index _ (2 : Fin 3) * 1024 ≤ (j 2).val ∧ (j 2).val < win0_1.index _ (2 : Fin 3) * 1024 + 1024
    rw [e2]; omega

/-- THE RESULT ARRAY after the run is the whole-array function of the argument array. -/
theorem final (m : (ℓ : Loc nD τ sig) → Buf (Elt Ideal) ℓ) (c : Dev nD) :
    (dats m 0 c).arrAt 1 cfg0.N = Cert.KlAttn.wholeK (m ((c : Thread nD τ).loc main_arg0)) :=
  (dats m 0 c).arrAt_eq_of_cover 1 (Cert.KlAttn.wholeK (m ((c : Thread nD τ).loc main_arg0)))
    (fun t _ => flushed_eq m c t) cover

/-- THE KERNEL'S RUN: it terminates without fault, the result array ends at the whole-array function of
    the argument array as launched, and the argument array is unchanged. -/
theorem krun (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = Cert.KlAttn.wholeK (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KArray

end
-- ==== Proof.Finite.lean ====
/-
  From the precondition to "every entry of the argument array is a real number".

  The precondition is the printed predicate  all (|x| < +inf)  evaluated on the argument array
  and required to be 1 on every device: the absolute value of each entry, compared (strictly
  less) with the single-precision word of +infinity broadcast to the array's shape, and the
  32 * 1024 * 1024 truth values reduced by "and" from 1.  An "and" over all entries that comes
  out 1 met a 1 at every entry; at the exact instance the word 0x7F800000 denotes the top element
  of the extended reals, the absolute value is max x (-x), and  max x (-x) < top  rules out
  both infinities: x is the coercion of a real.
-/
import proofs.«150756_j33964601377283_2_alg».proof.Defs
import proofs.«150756_j33964601377283_2_alg».proof.Proof.Gen.Pre_finite_inputs
import Idealize.ShloMosaic.Lib.ReduceAll
import Idealize.ShloMosaic.Lib.ValueIdx

noncomputable section

namespace Cert.Finite

open Idealize.ShloMosaic Idealize.SL.Sem

/-- The single-precision word of +infinity (exponent all ones, significand zero, sign clear)
    denotes the top element of the extended reals. -/
theorem inf_word : Ideal.ofBits .f32 0x7F800000#32 = (⊤ : EReal) := by
  simp [Ideal.ofBits, Ideal.ieee]

/-- An extended real whose absolute value, max x (-x), is strictly below the top element is
    neither infinity: at the bottom element the absolute value is the top element, at the top
    element it is the top element itself, and top < top is false, so the comparison's truth
    value would be 0. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The result of the predicate has rank 0: one index. -/
instance : Subsingleton Cert.Pre_finite_inputs.S_.Idx := ⟨fun a b => funext fun d => d.elim0⟩

/-- One entry of the predicate's comparison: if  |A j| < (the word of +infinity, broadcast)  has truth
    value 1 then A j is a real number. -/
theorem real_of_entry [hPre : Cert.Pre_finite_inputs.Facts]
    (A : Cert.Pre_finite_inputs.S32x1024x1024.Idx → EReal) (j : Cert.Pre_finite_inputs.S32x1024x1024.Idx)
    (h : cmpf (F := Ideal) (φ := .f32) .olt (Host.absf (F := Ideal) (φ := .f32) A)
      (broadcastInDim Cert.Pre_finite_inputs.S32x1024x1024 ![] hPre.bcast_S_S32x1024x1024
        (constant (F := Ideal) Cert.Pre_finite_inputs.S_ .f32 0x7F800000#32)) j = 1#1) :
    ∃ r : ℝ, A j = (r : EReal) := by
  -- the absolute value is max x (-x); a broadcast scalar constant is its word's value at every index
  have h2 : Ideal.cmp .olt (max (A j) (-(A j))) (Ideal.ofBits .f32 0x7F800000#32) = 1#1 := h
  rw [inf_word] at h2
  exact real_of_abs_lt_top _ h2

/-- Under the precondition every entry of the argument array, on every device, is a real number. -/
theorem real_of_pre [hPre : Cert.Pre_finite_inputs.Facts]
    (m : (ℓ : Loc Cert.KernelIdeal.nD Cert.KernelIdeal.τ Cert.KernelIdeal.sig) → Buf (Elt Ideal) ℓ) (h : Cert.Pre_KernelIdeal m) (c : Dev Cert.KernelIdeal.nD) (j : Cert.KernelIdeal.S32x1024x1024.Idx) :
    ∃ r : ℝ, m ((c.tc : Thread Cert.KernelIdeal.nD Cert.KernelIdeal.τ).loc Cert.KernelIdeal.main_arg0) j = (r : EReal) := by
  -- the predicate's one result, read at its only index
  have h0 := congrFun (h c) ValueIdx.ix0
  dsimp only [Cert.Pre_finite_inputs.fn] at h0
  -- the "and" over all entries is 1, so the comparison at entry j is 1
  have h1 := Host.reduce_andi_all _ _ _ _ _ h0 j
  exact real_of_entry _ j h1

end Cert.Finite

end
-- ==== Proof.RefValue.lean ====
/-
  The reference program's result, read at an index, is the slice-wise specification of Proof/Spec.lean.

  The program is a chain of host operations on the argument array `x0 : [32, 1024, 1024]`. Each stage below reads one
  of the chain's arrays at explicit coordinates `(b, i)` or `(b, i, d)` and says which function of the batch slice
  `X = slice x0 b` stands there, each stage from the ones before it:

    the row maximum, the shifted row, its exponentials, their sum, the log-probabilities (`log_softmax`);
    their exponentials (the probabilities), the negative entropy `∑ d, p i d · logp i d`, the cross terms
    `∑ d, p i d · logp j d`, minus the divergence, its row maximum, the unnormalised weights, their row sum, the
    weights, and last the weighted average of the rows of `X`.

  A broadcast along an axis reads its operand at the index with that axis dropped; a sum or a contraction over an axis is the
  `Fin 1024`-indexed sum over that axis's coordinate; a maximum over an axis is the fold of `max` from `-∞` over it.
-/
import proofs.«150756_j33964601377283_2_alg».proof.Proof.RefRead
import proofs.«150756_j33964601377283_2_alg».proof.Proof.Whole
import Idealize.ShloMosaic.Lib.ValueIdx
import Idealize.ShloMosaic.PureOps.Reduce
import Idealize.ShloMosaic.PureOps.Ideal.Laws

noncomputable section

namespace Cert.RefValue

open Cert.ReferenceIdeal Cert.ReferenceIdeal.ReadP Cert.KlAttn Idealize.ShloMosaic Idealize.ShloMosaic.ValueIdx
open Cert.ReferenceIdeal.Facts₀

/-- Two rank-2 indices with the same coordinates are equal (both coordinates compute). -/
local macro "idx_rfl2" : term =>
  `(funext fun a => Fin.ext (by match a with | ⟨0, _⟩ => rfl | ⟨1, _⟩ => rfl))
/-- Two rank-3 indices with the same coordinates are equal (all three coordinates compute). -/
local macro "idx_rfl3" : term =>
  `(funext fun a => Fin.ext (by match a with | ⟨0, _⟩ => rfl | ⟨1, _⟩ => rfl | ⟨2, _⟩ => rfl))

/-- The word `0xFF800000` is `-∞`: sign bit set, exponent all ones, significand zero. -/
theorem ofBits_neg_inf : Ideal.ofBits .f32 0xFF800000#32 = (⊥ : EReal) := by simp [Ideal.ofBits, Ideal.ieee]

/-- A maximum over the last axis of a `[32, 1024, 1024]` array, started from `-∞`, is at `(b, i)` the maximum of the
    row `d ↦ y (b, i, d)`: the fold of `max` over the reduced axis's coordinates, the reduced index with the coordinate
    inserted being `(b, i, d)`. -/
theorem rowmax_read (y : (⟨S32x1024x1024, .f32⟩ : BufTy).Contents (Elt Ideal)) (init : (⟨S_, .f32⟩ : BufTy).Contents (Elt Ideal))
    (hinit : init (Shape.Idx.first h_S_) = (⊥ : EReal)) (b : Fin 32) (i : Fin 1024) :
    Host.reduce (FloatOps.maximumf (F := Ideal) (φ := .f32)) y init reducesTo_S32x1024x1024_S32x1024_d2 h_S_ (ix2 b i)
      = vmax (fun d : Fin 1024 => y (ix3 b i d)) := by
  have h : S32x1024x1024.Reduces [2] S32x1024 := by decide
  rw [Host.reduce_eq_fold_single _ y init _ h _ (ix2 b i), hinit]
  have e : (y ∘ h.lift (ix2 b i)) = fun d : Fin 1024 => y (ix3 b i d) :=
    funext fun d => congrArg y idx_rfl3
  rw [e]; rfl

variable (x0 : (⟨S32x1024x1024, .f32⟩ : BufTy).Contents (Elt Ideal)) (b : Fin 32)

/-! ### `log_softmax` of the rows -/

/-- The row maximum: `max (-∞) (max over d of x0 (b, i, d))`. -/
theorem read_vmax (i : Fin 1024) : val_main_call0_v2 (F := Ideal) x0 (ix2 b i) = vmax (slice x0 b i) := by
  rw [val_main_call0_v2_apply, val_main_call0_v1_apply, val_main_call0_cst_0_apply]
  unfold val_main_call0_v0
  rw [rowmax_read x0 _ (by rw [val_main_call0_cst_apply]; exact ofBits_neg_inf) b i]
  show max (Ideal.ofBits .f32 0xFF800000#32) _ = _
  rw [ofBits_neg_inf, max_bot_left]; rfl

/-- The row minus its maximum (the maximum broadcast back along the last axis). -/
theorem read_shifted (i d : Fin 1024) : val_main_call0_v5 (F := Ideal) x0 (ix3 b i d) = shifted (slice x0 b) i d := by
  rw [val_main_call0_v5_apply, val_main_call0_v4_apply, val_main_call0_v3_apply,
    show idx_main_call0_v3 (idx_main_call0_v4 (ix3 b i d)) = ix2 b i from idx_rfl2, read_vmax]
  rfl

/-- Its exponential. -/
theorem read_expo (i d : Fin 1024) : val_main_call0_v6 (F := Ideal) x0 (ix3 b i d) = expo (slice x0 b) i d := by
  rw [val_main_call0_v6_apply, read_shifted]; rfl

/-- The softmax denominator: `0 + ∑ d` of the exponentials. -/
theorem read_denom (i : Fin 1024) : val_main_call0_v7 (F := Ideal) x0 (ix2 b i) = denom (slice x0 b) i := by
  rw [val_main_call0_v7_apply, val_main_call0_cst_1_apply]
  show Ideal.ofBits .f32 0x00000000#32 + _ = _
  rw [Ideal.ofBits_zero_f32, zero_add]
  exact Finset.sum_congr rfl fun k _ => by
    rw [show idx_main_call0_v7 (ix2 b i) k = ix3 b i k from idx_rfl3, read_expo]

/-- The log-probabilities: the shifted row minus the logarithm of the denominator (broadcast back). -/
theorem read_logp (i d : Fin 1024) : val_main_v0 (F := Ideal) x0 (ix3 b i d) = logp (slice x0 b) i d := by
  rw [val_main_v0_apply, read_shifted, val_main_call0_v10_apply, val_main_call0_v9_apply, val_main_call0_v8_apply,
    show idx_main_call0_v8 (idx_main_call0_v10 (ix3 b i d)) = ix2 b i from idx_rfl2, read_denom]
  rfl

/-! ### The divergences -/

/-- The probabilities: the exponential of the log-probabilities. -/
theorem read_prob (i d : Fin 1024) : val_main_v1 (F := Ideal) x0 (ix3 b i d) = probR (slice x0 b) i d := by
  rw [val_main_v1_apply, read_logp]; rfl

/-- The negative entropy of row `i`: `0 + ∑ d, p i d · logp i d`. -/
theorem read_negEnt (i : Fin 1024) : val_main_v3 (F := Ideal) x0 (ix2 b i) = negEnt (slice x0 b) i := by
  rw [val_main_v3_apply, val_main_cst_apply]
  show Ideal.ofBits .f32 0x00000000#32 + _ = _
  rw [Ideal.ofBits_zero_f32, zero_add]
  exact Finset.sum_congr rfl fun k _ => by
    rw [show idx_main_v3 (ix2 b i) k = ix3 b i k from idx_rfl3, val_main_v2_apply, read_prob, read_logp]; rfl

/-- The cross term: the contraction over `d` of `p (b, i, d)` with `logp (b, j, d)`. -/
theorem read_cross (i j : Fin 1024) : val_main_v4 (F := Ideal) x0 (ix3 b i j) = crossR (slice x0 b) i j := by
  rw [val_main_v4_apply]
  exact Finset.sum_congr rfl fun k _ => by
    rw [show lidx_main_v4 (ix3 b i j) k = ix3 b i k from idx_rfl3,
      show ridx_main_v4 (ix3 b i j) k = ix3 b j k from idx_rfl3, read_prob, read_logp]

/-- Minus the divergence: the negation of the negative entropy (broadcast along `j`) minus the cross term. -/
theorem read_negKl (i j : Fin 1024) : val_main_v8 (F := Ideal) x0 (ix3 b i j) = negKl (slice x0 b) i j := by
  rw [val_main_v8_apply, val_main_v7_apply, val_main_v6_apply, val_main_v5_apply,
    show idx_main_v5 (idx_main_v6 (ix3 b i j)) = ix2 b i from idx_rfl2, read_negEnt, read_cross]
  rfl

/-! ### The softmax of minus the divergence, and the average -/

/-- The row maximum of minus the divergence. -/
theorem read_negKlMax (i : Fin 1024) : val_main_v11 (F := Ideal) x0 (ix2 b i) = vmax (negKl (slice x0 b) i) := by
  rw [val_main_v11_apply, val_main_v10_apply, val_main_cst_1_apply]
  unfold val_main_v9
  rw [rowmax_read (val_main_v8 (F := Ideal) x0) _ (by rw [val_main_cst_0_apply]; exact ofBits_neg_inf) b i]
  show max (Ideal.ofBits .f32 0xFF800000#32) _ = _
  rw [ofBits_neg_inf, max_bot_left]
  exact congrArg vmax (funext fun j => read_negKl x0 b i j)

/-- The unnormalised weights: the exponential of minus the divergence less its row maximum. -/
theorem read_unnorm (i j : Fin 1024) : val_main_v15 (F := Ideal) x0 (ix3 b i j) = unnorm (slice x0 b) i j := by
  rw [val_main_v15_apply, val_main_v14_apply, read_negKl, val_main_v13_apply, val_main_v12_apply,
    show idx_main_v12 (idx_main_v13 (ix3 b i j)) = ix2 b i from idx_rfl2, read_negKlMax]
  rfl

/-- Their row sum: `0 + ∑ j'` of the unnormalised weights. -/
theorem read_unnormSum (i : Fin 1024) :
    val_main_v16 (F := Ideal) x0 (ix2 b i) = ∑ j' : Fin 1024, unnorm (slice x0 b) i j' := by
  rw [val_main_v16_apply, val_main_cst_2_apply]
  show Ideal.ofBits .f32 0x00000000#32 + _ = _
  rw [Ideal.ofBits_zero_f32, zero_add]
  exact Finset.sum_congr rfl fun k _ => by
    rw [show idx_main_v16 (ix2 b i) k = ix3 b i k from idx_rfl3, read_unnorm]

/-- The weights: the quotient of an unnormalised weight by its row sum (broadcast back along `j`). -/
theorem read_attn (i j : Fin 1024) : val_main_v19 (F := Ideal) x0 (ix3 b i j) = attnR (slice x0 b) i j := by
  rw [val_main_v19_apply, read_unnorm, val_main_v18_apply, val_main_v17_apply,
    show idx_main_v17 (idx_main_v18 (ix3 b i j)) = ix2 b i from idx_rfl2, read_unnormSum]
  rfl

/-- The result: the contraction over `j` of the weights `(b, i, j)` with the argument's rows `(b, j, d)`. -/
theorem read_out (i d : Fin 1024) : val_main_v20 (F := Ideal) x0 (ix3 b i d) = outR (slice x0 b) i d := by
  rw [val_main_v20_apply]
  exact Finset.sum_congr rfl fun k _ => by
    rw [show lidx_main_v20 (ix3 b i d) k = ix3 b i k from idx_rfl3,
      show ridx_main_v20 (ix3 b i d) k = ix3 b k d from idx_rfl3, read_attn]
    rfl

/-- The reference's result array is the slice-wise specification of its argument, entry by entry. -/
theorem ref_eq (x0 : (⟨Cert.ReferenceIdeal.S32x1024x1024, .f32⟩ : BufTy).Contents (Elt Ideal)) :
    Cert.ReferenceIdeal.ReadP.val_main_v20 (F := Ideal) x0 = Cert.KlAttn.wholeR x0 := by
  funext j
  obtain ⟨b, i, d, rfl⟩ : ∃ (b : Fin 32) (i d : Fin 1024), j = ix3 b i d := ⟨j 0, j 1, j 2, eq_ix3 j⟩
  rw [read_out, wholeR_ix3]

end Cert.RefValue

end
-- ==== Proof.LibSoftmaxLaws.lean ====
/-
  Laws of the softmax over the reals, read in the extended reals. The inclusion of the reals commutes with
  finite sums, and the maximum of a nonempty finite family of reals, taken from `-∞`, is a real number; the
  exponential of a log-probability is the exponential times the reciprocal of the denominator,
  `exp (a - log s) = exp a · (1 / s)` for `s > 0`; and normalised exponential weights do not see a shift
  common to the whole row, `exp (c j + t) / ∑ j', exp (c j' + t) = exp (c j) / ∑ j', exp (c j')`, here with
  `t = -e - M` written as the reference of a divergence-weighted attention writes it.
-/
import Idealize.ShloMosaic.PureOps.Ideal

noncomputable section

namespace Cert.SoftmaxLaws

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum of a nonempty finite family of reals, taken in the extended reals from `-∞`, is one of
    the family's members, so it is a real number. -/
theorem exists_real_fold_max {n : ℕ} (hn : 0 < n) (f : Fin n → ℝ) :
    ∃ m : ℝ, (Finset.univ : Finset (Fin n)).fold max ⊥ (fun i => (f i : EReal)) = (m : EReal) := by
  haveI : Nonempty (Fin n) := ⟨⟨0, hn⟩⟩
  obtain ⟨i, -, hi⟩ := Finset.exists_mem_eq_sup (Finset.univ : Finset (Fin n)) Finset.univ_nonempty
    (fun i => (f i : EReal))
  exact ⟨f i, hi⟩

/-- For a real `a` and a positive real `s`, `exp (a - log s) = exp a · (1 / s)`, read in the extended reals:
    the exponential of a log-probability is the exponential times the reciprocal of the denominator. -/
theorem exp_sub_log_eq (a s : ℝ) (hs : 0 < s) :
    Ideal.exp ((a : EReal) - Ideal.log (s : EReal)) = Ideal.exp (a : EReal) * Ideal.div 1 (s : EReal) := by
  rw [Ideal.log_coe, if_neg (not_le.2 hs), ← EReal.coe_sub, Ideal.exp_coe, Ideal.exp_coe,
    Ideal.div_coe hs.ne', one_mul, ← EReal.coe_mul, Real.exp_sub, Real.exp_log hs, div_eq_mul_one_div]

/-- Softmax does not see a shift common to the whole row: with `e` and `M` independent of the index,
    `exp (-(e - c j) - M) · (1 / ∑ j', exp (-(e - c j') - M)) = exp (c j) · (1 / ∑ j', exp (c j'))`,
    since `exp (-(e - c j) - M) = exp (-e - M) · exp (c j)` and the first factor cancels. -/
theorem softmax_shift {n : ℕ} (hn : 0 < n) (c : Fin n → ℝ) (e M : ℝ) (j : Fin n) :
    Real.exp (-(e - c j) - M) * (1 / ∑ j' : Fin n, Real.exp (-(e - c j') - M))
      = Real.exp (c j) * (1 / ∑ j' : Fin n, Real.exp (c j')) := by
  have key : ∀ k, Real.exp (-(e - c k) - M) = Real.exp (-e - M) * Real.exp (c k) := by
    intro k
    rw [← Real.exp_add]
    congr 1
    ring
  haveI : Nonempty (Fin n) := ⟨⟨0, hn⟩⟩
  have hS : 0 < ∑ j' : Fin n, Real.exp (c j') :=
    Finset.sum_pos (fun k _ => Real.exp_pos _) Finset.univ_nonempty
  have hE : 0 < Real.exp (-e - M) := Real.exp_pos _
  simp only [key]
  rw [← Finset.mul_sum]
  field_simp

end Cert.SoftmaxLaws

end
-- ==== Proof.SpecLaw.lean ====
/-
  The law that joins the two sides of the specification: on a matrix of finite entries the kernel's
  result `outK` and the reference's result `outR` are one function.

  With every entry real, every intermediate value is real, and over the reals
  * the two ways of taking the probabilities agree, because `exp (a - log s) = exp a · (1 / s)` for `s > 0`
    (the softmax denominator is a sum of `D > 0` exponentials, so it is positive);
  * hence the two cross terms agree;
  * the reference's weights `exp (-(e - c j) - M) / ∑ j', exp (-(e - c j') - M)` equal the kernel's
    `exp (c j) · (1 / ∑ j', exp (c j'))`, because the factor `exp (-e - M)`, which does not depend on `j`,
    cancels between numerator and denominator. The value of the row maximum `M` is never used, only that it
    is a real number, which holds because the row is not empty (`N > 0`).
-/
import proofs.«150756_j33964601377283_2_alg».proof.Proof.Spec
import proofs.«150756_j33964601377283_2_alg».proof.Proof.LibSoftmaxLaws

noncomputable section

namespace Cert.KlAttn

open Idealize.ShloMosaic Cert.SoftmaxLaws

/-- The maximum of a nonempty finite family of reals, taken in the extended reals from `-∞`, is a real
    number: the specification's `vmax` is that maximum. -/
theorem exists_real_vmax {n : ℕ} (hn : 0 < n) (f : Fin n → ℝ) :
    ∃ m : ℝ, vmax (fun i => (f i : EReal)) = (m : EReal) :=
  exists_real_fold_max hn f

/-- On a matrix of finite entries the kernel's result and the reference's result are one function. -/
theorem outK_eq_outR {N D : ℕ} (hN : 0 < N) (hD : 0 < D) (X : Fin N → Fin D → EReal)
    (hX : ∀ i d, ∃ r : ℝ, X i d = (r : EReal)) : outK X = outR X := by
  choose x hx using hX
  haveI : Nonempty (Fin D) := ⟨⟨0, hD⟩⟩
  haveI : Nonempty (Fin N) := ⟨⟨0, hN⟩⟩
  -- the row maxima are real numbers
  have hm : ∀ i, ∃ m : ℝ, vmax (X i) = (m : EReal) := by
    intro i
    have h : X i = fun d => (x i d : EReal) := funext (hx i)
    rw [h]
    exact exists_real_vmax hD _
  choose m hm using hm
  -- the shifted rows, their exponentials, the denominators and the log-probabilities are real
  have hshift : ∀ i d, shifted X i d = ((x i d - m i : ℝ) : EReal) := by
    intro i d
    rw [shifted, hx, hm, ← EReal.coe_sub]
  have hexpo : ∀ i d, expo X i d = ((Real.exp (x i d - m i) : ℝ) : EReal) := by
    intro i d
    rw [expo, hshift, Ideal.exp_coe]
  have hdenom : ∀ i, denom X i = ((∑ d : Fin D, Real.exp (x i d - m i) : ℝ) : EReal) := by
    intro i
    rw [denom, coe_sum]
    exact Finset.sum_congr rfl (fun d _ => hexpo i d)
  have hpos : ∀ i, 0 < ∑ d : Fin D, Real.exp (x i d - m i) := fun i =>
    Finset.sum_pos (fun d _ => Real.exp_pos _) Finset.univ_nonempty
  have hlogp : ∀ i d, logp X i d
      = ((x i d - m i - Real.log (∑ d' : Fin D, Real.exp (x i d' - m i)) : ℝ) : EReal) := by
    intro i d
    rw [logp, hshift, hdenom, Ideal.log_coe, if_neg (not_le.2 (hpos i)), ← EReal.coe_sub]
  -- the two ways of taking the probabilities agree
  have hprob : ∀ i d, probR X i d = probK X i d := by
    intro i d
    rw [probR, probK, logp, expo, hshift, hdenom]
    exact exp_sub_log_eq _ _ (hpos i)
  have hprobK : ∀ i d, probK X i d
      = ((Real.exp (x i d - m i) * (1 / ∑ d' : Fin D, Real.exp (x i d' - m i)) : ℝ) : EReal) := by
    intro i d
    rw [probK, hexpo, hdenom, Ideal.div_coe (hpos i).ne', one_mul, ← EReal.coe_mul]
  -- hence the cross terms agree, and they are real
  have hcross : ∀ i j, crossR X i j = crossK X i j := by
    intro i j
    rw [crossR, crossK]
    exact Finset.sum_congr rfl (fun d _ => by rw [hprob])
  have hcrossK : ∀ i j, ∃ c : ℝ, crossK X i j = (c : EReal) := by
    intro i j
    refine ⟨∑ d : Fin D, Real.exp (x i d - m i) * (1 / ∑ d' : Fin D, Real.exp (x i d' - m i))
      * (x j d - m j - Real.log (∑ d' : Fin D, Real.exp (x j d' - m j))), ?_⟩
    rw [crossK, coe_sum]
    exact Finset.sum_congr rfl (fun d _ => by rw [hprobK, hlogp, ← EReal.coe_mul])
  choose c hc using hcrossK
  -- the negative entropies are real
  have hnegEnt : ∀ i, negEnt X i = (c i i : EReal) := by
    intro i
    rw [← hc, negEnt, crossK]
    exact Finset.sum_congr rfl (fun d _ => by rw [hprob])
  -- minus the divergences are real, and so are their row maxima
  have hnegKl : ∀ i j, negKl X i j = ((-(c i i - c i j) : ℝ) : EReal) := by
    intro i j
    rw [negKl, hnegEnt, hcross, hc, ← EReal.coe_sub, ← EReal.coe_neg]
  have hM : ∀ i, ∃ M : ℝ, vmax (negKl X i) = (M : EReal) := by
    intro i
    have h : negKl X i = fun j => ((-(c i i - c i j) : ℝ) : EReal) := funext (hnegKl i)
    rw [h]
    exact exists_real_vmax hN _
  choose M hM using hM
  -- the reference's unnormalised weights and their row sums are real; the sums are positive
  have hunnorm : ∀ i j, unnorm X i j = ((Real.exp (-(c i i - c i j) - M i) : ℝ) : EReal) := by
    intro i j
    rw [unnorm, hnegKl, hM, ← EReal.coe_sub, Ideal.exp_coe]
  have hsumU : ∀ i, (∑ j' : Fin N, unnorm X i j')
      = ((∑ j' : Fin N, Real.exp (-(c i i - c i j') - M i) : ℝ) : EReal) := by
    intro i
    rw [coe_sum]
    exact Finset.sum_congr rfl (fun j' _ => hunnorm i j')
  have hposU : ∀ i, 0 < ∑ j' : Fin N, Real.exp (-(c i i - c i j') - M i) := fun i =>
    Finset.sum_pos (fun j' _ => Real.exp_pos _) Finset.univ_nonempty
  -- the kernel's row sums likewise
  have hsumK : ∀ i, (∑ j' : Fin N, Ideal.exp (crossK X i j'))
      = ((∑ j' : Fin N, Real.exp (c i j') : ℝ) : EReal) := by
    intro i
    rw [coe_sum]
    exact Finset.sum_congr rfl (fun j' _ => by rw [hc, Ideal.exp_coe])
  have hposK : ∀ i, 0 < ∑ j' : Fin N, Real.exp (c i j') := fun i =>
    Finset.sum_pos (fun j' _ => Real.exp_pos _) Finset.univ_nonempty
  -- the weights agree: the common factor of the reference's row cancels
  have hattn : ∀ i j, attnK X i j = attnR X i j := by
    intro i j
    rw [attnK, attnR, hsumK, hsumU, hunnorm, hc, Ideal.exp_coe, Ideal.div_coe (hposK i).ne',
      Ideal.div_coe (hposU i).ne', one_mul, ← EReal.coe_mul, ← EReal.coe_mul,
      softmax_shift hN (c i) (c i i) (M i) j]
  -- so the weighted averages agree term by term
  funext i d
  rw [outK, outR]
  exact Finset.sum_congr rfl (fun j _ => by rw [hattn])

end Cert.KlAttn

end
-- ==== Proof.Algebraic.lean ====
/-
  The two programs end with equal results.

  After its run the kernel's result array is  wholeK A, where A is its argument array: entry (b, i, d)
  is the kernel's side of the specification, outK, of batch slice b of A at (i, d).  After its run the
  reference's result array is its operations' composed term, which read index by index is  wholeR A',
  where A' is the reference's argument array: entry (b, i, d) is the reference's side, outR, of batch
  slice b at (i, d).  The two argument arrays agree, and under the precondition every entry of A is a
  real number; on a matrix of real numbers  outK = outR  (the algebraic law between the two
  arrangements, which is where finiteness is used), hence slice by slice  wholeK A = wholeR A.
  Both runs also leave their argument arrays unchanged.
-/
import proofs.«150756_j33964601377283_2_alg».proof.Defs
import proofs.«150756_j33964601377283_2_alg».proof.Proof.KArray
import proofs.«150756_j33964601377283_2_alg».proof.Proof.Finite
import proofs.«150756_j33964601377283_2_alg».proof.Proof.RefRun
import proofs.«150756_j33964601377283_2_alg».proof.Proof.RefRead
import proofs.«150756_j33964601377283_2_alg».proof.Proof.RefValue
import proofs.«150756_j33964601377283_2_alg».proof.Proof.SpecLaw
import proofs.«150756_j33964601377283_2_alg».proof.Proof.Whole
import proofs.«150756_j33964601377283_2_alg».proof.Proof.Gen.KernelIdeal
import proofs.«150756_j33964601377283_2_alg».proof.Proof.Gen.ReferenceIdeal
import proofs.«150756_j33964601377283_2_alg».proof.Proof.Gen.Pre_finite_inputs

noncomputable section

namespace Cert.Algebraic

open Idealize.ShloMosaic Idealize.SL.Sem Idealize.ShloMosaic.ValueIdx

/-- The law on a whole array: if every entry of A is a real number then so is every entry of each of
    its 32 batch slices, on each slice (a 1024 x 1024 matrix of reals) the two sides of the
    specification agree, and the whole-array functions apply them slice by slice. -/
theorem wholeK_eq_wholeR (A : Cert.KlAttn.SArr.Idx → EReal) (hA : ∀ j, ∃ r : ℝ, A j = (r : EReal)) :
    Cert.KlAttn.wholeK A = Cert.KlAttn.wholeR A := by
  funext j
  obtain ⟨b, i, d, rfl⟩ : ∃ (b : Fin 32) (i d : Fin 1024), j = ix3 b i d := ⟨j 0, j 1, j 2, eq_ix3 j⟩
  rw [Cert.KlAttn.wholeK_ix3, Cert.KlAttn.wholeR_ix3]
  exact congrFun (congrFun (Cert.KlAttn.outK_eq_outR (by decide) (by decide) (Cert.KlAttn.slice A b)
    (fun i' d' => hA (ix3 b i' d'))) i) d

/-- The reference runs (terminates, no fault) and its argument array ends unchanged: its run with the
    result dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

/-- From memories that agree on the argument, under the precondition, both programs run, end with the
    same result array  wholeK A  on every device, and leave their arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KlAttn.wholeK
    (m ((c.tc : Thread Cert.KernelIdeal.nD Cert.KernelIdeal.τ).loc Cert.KernelIdeal.main_arg0)),
    Cert.KArray.krun m ρ, ?_⟩
  refine (θ_run Cert.ReferenceIdeal.defs _ _).mono (fun _ h c => ⟨(h c).1.trans ?_, (h c).2⟩)
    (Cert.ReferenceIdeal.ValueP.run (F := Ideal) m' ρ')
  -- the reference's result: its composed term, read index by index, of its own argument array
  rw [Cert.ReferenceIdeal.ReadP.val_main_v20_eq, Cert.RefValue.ref_eq, hagree c]
  -- the law, with finiteness from the precondition
  exact (wholeK_eq_wholeR _ (fun j => Cert.Finite.real_of_pre m hpre c j)).symm

end Cert.Algebraic

end
-- ==== Proof.lean ====
/-
  The proof of `Cert.Claim`: the kernel (a Kullback–Leibler attention over each batch slice: softmax and log-softmax
  of the rows, the cross terms `∑ d, p i d · logp j d`, a softmax of them over `j`, and the average of the rows with
  those weights) against its reference, which normalises the same weights differently.

  The two frames of the kernel are its generated frame certificates; the reference's frame is its run with the result
  dropped. The idealization rewrote no operation, so `preserves` asks nothing. For the algebraic conjunct: the kernel's
  result array is `wholeK` of its argument (Proof/KBody.lean for one grid point's block, Proof/KArray.lean from blocks
  to the array), the reference's is `wholeR` of its argument (Proof/RefValue.lean), and on an argument whose entries are
  all finite (the precondition, Proof/Finite.lean) the two are one function (Proof/SpecLaw.lean): the probabilities
  `exp(shifted) · (1 / denom)` and `exp(shifted - log denom)` agree because the denominator is a positive real, and the
  reference's weights `exp(-(n i - c i j) - M i) / ∑ j', exp(-(n i - c i j') - M i)` are the kernel's
  `exp(c i j) · (1 / ∑ j', exp(c i j'))` because the factor `exp(-n i - M i)` does not depend on `j` and cancels.
  Proof/Algebraic.lean assembles these.
-/
import proofs.«150756_j33964601377283_2_alg».proof.Defs
import proofs.«150756_j33964601377283_2_alg».proof.Proof.Gen.Kernel
import proofs.«150756_j33964601377283_2_alg».proof.Proof.Gen.Kernel.Skeleton
import proofs.«150756_j33964601377283_2_alg».proof.Proof.Gen.Kernel.Launch
import proofs.«150756_j33964601377283_2_alg».proof.Proof.Gen.Kernel.Points
import proofs.«150756_j33964601377283_2_alg».proof.Proof.Gen.Kernel.Frame
import proofs.«150756_j33964601377283_2_alg».proof.Proof.Gen.KernelIdeal
import proofs.«150756_j33964601377283_2_alg».proof.Proof.Gen.KernelIdeal.Skeleton
import proofs.«150756_j33964601377283_2_alg».proof.Proof.Gen.KernelIdeal.Launch
import proofs.«150756_j33964601377283_2_alg».proof.Proof.Gen.KernelIdeal.Points
import proofs.«150756_j33964601377283_2_alg».proof.Proof.Gen.KernelIdeal.Frame
import proofs.«150756_j33964601377283_2_alg».proof.Proof.Gen.ReferenceIdeal
import proofs.«150756_j33964601377283_2_alg».proof.Proof.Gen.KernelIdeal.Value
import proofs.«150756_j33964601377283_2_alg».proof.Proof.Gen.Pre_finite_inputs
import proofs.«150756_j33964601377283_2_alg».proof.Proof.Algebraic
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    Cert.Algebraic.frame_ri,
    trivial,
    Cert.Algebraic.algebraic⟩

end Cert.Proof

end
